-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S2x500000 : Shape := ⟨2, ![2, 500000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : IVec S2x500000 32) (main_arg3 : IVec S2x500000 32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_v13 main_v16
-- ==== Kernel.lean ====
abbrev S100000x64 : Shape := ⟨2, ![100000, 64]⟩
abbrev S2x1250000 : Shape := ⟨2, ![2, 1250000]⟩
abbrev S2x500000 : Shape := ⟨2, ![2, 500000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S10000x64 : Shape := ⟨2, ![10000, 64]⟩
abbrev S10000x1 : Shape := ⟨2, ![10000, 1]⟩
abbrev S1250000x64 : Shape := ⟨2, ![1250000, 64]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 126
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S2x500000, .i32⟩
  | .hbm, ⟨3, _⟩ => ⟨S2x500000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S_, .f32⟩
  | .hbm, ⟨23, _⟩ => ⟨S1250000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S_, .i32⟩
  | .hbm, ⟨34, _⟩ => ⟨S1250000, .i32⟩
  | .hbm, ⟨35, _⟩ => ⟨S1250000, .i1⟩
  | .hbm, ⟨36, _⟩ => ⟨S_, .i32⟩
  | .hbm, ⟨37, _⟩ => ⟨S1250000, .i32⟩
  | .hbm, ⟨38, _⟩ => ⟨S1250000, .i32⟩
  | .hbm, ⟨39, _⟩ => ⟨S1250000, .i32⟩
  | .hbm, ⟨40, _⟩ => ⟨S1250000x1, .i32⟩
  | .hbm, ⟨41, _⟩ => ⟨S1250000x64, .f32⟩
  | .hbm, ⟨42, _⟩ => ⟨S_, .i32⟩
  | .hbm, ⟨43, _⟩ => ⟨S1250000, .i32⟩
  | .hbm, ⟨44, _⟩ => ⟨S1250000, .i1⟩
  | .hbm, ⟨45, _⟩ => ⟨S_, .i32⟩
  | .hbm, ⟨46, _⟩ => ⟨S1250000, .i32⟩
  | .hbm, ⟨47, _⟩ => ⟨S1250000, .i32⟩
  | .hbm, ⟨48, _⟩ => ⟨S1250000, .i32⟩
  | .hbm, ⟨49, _⟩ => ⟨S1250000x1, .i32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S_, .i32⟩
  | .hbm, ⟨57, _⟩ => ⟨S1250000, .i32⟩
  | .hbm, ⟨58, _⟩ => ⟨S1250000, .i1⟩
  | .hbm, ⟨59, _⟩ => ⟨S_, .i32⟩
  | .hbm, ⟨60, _⟩ => ⟨S1250000, .i32⟩
  | .hbm, ⟨61, _⟩ => ⟨S1250000, .i32⟩
  | .hbm, ⟨62, _⟩ => ⟨S1250000, .i32⟩
  | .hbm, ⟨63, _⟩ => ⟨S1250000x1, .i32⟩
  | .hbm, ⟨64, _⟩ => ⟨S1250000x64, .f32⟩
  | .hbm, ⟨65, _⟩ => ⟨S_, .i32⟩
  | .hbm, ⟨66, _⟩ => ⟨S1250000, .i32⟩
  | .hbm, ⟨67, _⟩ => ⟨S1250000, .i1⟩
  | .hbm, ⟨68, _⟩ => ⟨S_, .i32⟩
  | .hbm, ⟨69, _⟩ => ⟨S1250000, .i32⟩
  | .hbm, ⟨70, _⟩ => ⟨S1250000, .i32⟩
  | .hbm, ⟨71, _⟩ => ⟨S1250000, .i32⟩
  | .hbm, ⟨72, _⟩ => ⟨S1250000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S1x500000, .i32⟩
  | .hbm, ⟨77, _⟩ => ⟨S500000, .i32⟩
  | .hbm, ⟨78, _⟩ => ⟨S1x500000, .i32⟩
  | .hbm, ⟨79, _⟩ => ⟨S500000, .i32⟩
  | .hbm, ⟨80, _⟩ => ⟨S1x500000, .i32⟩
  | .hbm, ⟨81, _⟩ => ⟨S500000, .i32⟩
  | .hbm, ⟨82, _⟩ => ⟨S1x500000, .i32⟩
  | .hbm, ⟨83, _⟩ => ⟨S500000, .i32⟩
  | .hbm, ⟨84, _⟩ => ⟨S_, .i32⟩
  | .hbm, ⟨85, _⟩ => ⟨S500000, .i32⟩
  | .hbm, ⟨86, _⟩ => ⟨S500000, .i1⟩
  | .hbm, ⟨87, _⟩ => ⟨S_, .i32⟩
  | .hbm, ⟨88, _⟩ => ⟨S500000, .i32⟩
  | .hbm, ⟨89, _⟩ => ⟨S500000, .i32⟩
  | .hbm, ⟨90, _⟩ => ⟨S500000, .i32⟩
  | .hbm, ⟨91, _⟩ => ⟨S500000x1, .i32⟩
  | .hbm, ⟨92, _⟩ => ⟨S500000x64, .f32⟩
  | .hbm, ⟨93, _⟩ => ⟨S_, .i32⟩
  | .hbm, ⟨94, _⟩ => ⟨S500000, .i32⟩
  | .hbm, ⟨95, _⟩ => ⟨S500000, .i1⟩
  | .hbm, ⟨96, _⟩ => ⟨S_, .i32⟩
  | .hbm, ⟨97, _⟩ => ⟨S500000, .i32⟩
  | .hbm, ⟨98, _⟩ => ⟨S500000, .i32⟩
  | .hbm, ⟨99, _⟩ => ⟨S500000, .i32⟩
  | .hbm, ⟨100, _⟩ => ⟨S500000x1, .i32⟩
  | .hbm, ⟨101, _⟩ => ⟨S500000x64, .f32⟩
  | .hbm, ⟨102, _⟩ => ⟨S500000x64, .f32⟩
  | .hbm, ⟨103, _⟩ => ⟨S_, .f32⟩
  | .hbm, ⟨104, _⟩ => ⟨S500000, .f32⟩
  | .hbm, ⟨105, _⟩ => ⟨S_, .i32⟩
  | .hbm, ⟨106, _⟩ => ⟨S500000, .i32⟩
  | .hbm, ⟨107, _⟩ => ⟨S500000, .i1⟩
  | .hbm, ⟨108, _⟩ => ⟨S_, .i32⟩
  | .hbm, ⟨109, _⟩ => ⟨S500000, .i32⟩
  | .hbm, ⟨110, _⟩ => ⟨S500000, .i32⟩
  | .hbm, ⟨111, _⟩ => ⟨S500000, .i32⟩
  | .hbm, ⟨112, _⟩ => ⟨S500000x1, .i32⟩
  | .hbm, ⟨113, _⟩ => ⟨S500000x64, .f32⟩
  | .hbm, ⟨114, _⟩ => ⟨S_, .i32⟩
  | .hbm, ⟨115, _⟩ => ⟨S500000, .i32⟩
  | .hbm, ⟨116, _⟩ => ⟨S500000, .i1⟩
  | .hbm, ⟨117, _⟩ => ⟨S_, .i32⟩
  | .hbm, ⟨118, _⟩ => ⟨S500000, .i32⟩
  | .hbm, ⟨119, _⟩ => ⟨S500000, .i32⟩
  | .hbm, ⟨120, _⟩ => ⟨S500000, .i32⟩
  | .hbm, ⟨121, _⟩ => ⟨S500000x1, .i32⟩
  | .hbm, ⟨122, _⟩ => ⟨S500000x64, .f32⟩
  | .hbm, ⟨123, _⟩ => ⟨S500000x64, .f32⟩
  | .hbm, ⟨124, _⟩ => ⟨S_, .f32⟩
  | .hbm, ⟨125, _⟩ => ⟨S500000, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x1, .f32⟩
  | .local _ .vmem, ⟨12, _⟩ => ⟨S10000x1, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x1, .f32⟩
  | .local _ .vmem, ⟨20, _⟩ => ⟨S10000x1, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x1, .f32⟩
  | .local _ .vmem, ⟨28, _⟩ => ⟨S10000x1, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_c_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_c_21 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_22 : Ref sig .tc := ⟨.hbm, 124, rfl⟩
abbrev main_v92 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S100000 : S_.BroadcastsInDim S100000 (![] : Fin 0 → Fin S100000.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  scatter_S100000_S1250000x1_S1250000_n_0_0_1_wf : ScatterDims.WF S100000 S1250000x1 S1250000 [] [0] [0] 1
  dot_S10000x64_S64x64_S10000x64_1_0_0_1_n_n_wf : DotDims.WF S10000x64 S64x64 S10000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  gather_S100000x64_S500000x1_S500000x64_1_0_n_n_0_1_164_wf : GatherDims.WF S100000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S2x500000 : Shape := ⟨2, ![2, 500000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S100000 : Shape := ⟨1, ![100000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 205
  | .vmem => 0
  | .smem => 0
  | _ => 0

abbrev hbmTy0_0 (i : Nat) : BufTy := match i % 128 with
  | 0 => ⟨S100000x64, .f32⟩
  | 1 => ⟨S2x1250000, .i32⟩
  | 2 => ⟨S2x500000, .i32⟩
  | 3 => ⟨S2x500000, .i32⟩
  | 4 => ⟨S64x64, .f32⟩
  | 5 => ⟨S64, .f32⟩
  | 6 => ⟨S64x64, .f32⟩
  | 7 => ⟨S64, .f32⟩
  | 8 => ⟨S1x1250000, .i32⟩
  | 9 => ⟨S1250000, .i32⟩
  | 10 => ⟨S1x1250000, .i32⟩
  | 11 => ⟨S1250000, .i32⟩
  | 12 => ⟨S100000x64, .f32⟩
  | 13 => ⟨S100000, .i32⟩
  | 14 => ⟨S1350000, .i32⟩
  | 15 => ⟨S1350000, .i32⟩
  | 16 => ⟨S_, .f32⟩
  | 17 => ⟨S100000, .f32⟩
  | 18 => ⟨S_, .i32⟩
  | 19 => ⟨S1350000, .i32⟩
  | 20 => ⟨S1350000, .i1⟩
  | 21 => ⟨S_, .i32⟩
  | 22 => ⟨S1350000, .i32⟩
  | 23 => ⟨S1350000, .i32⟩
  | 24 => ⟨S1350000, .i32⟩
  | 25 => ⟨S1350000x1, .i32⟩
  | 26 => ⟨S_, .f32⟩
  | 27 => ⟨S1350000, .f32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1350000, .i32⟩
  | 39 => ⟨S1350000, .i1⟩
  | 40 => ⟨S_, .i32⟩
  | 41 => ⟨S1350000, .i32⟩
  | 42 => ⟨S1350000, .i32⟩
  | 43 => ⟨S1350000, .i32⟩
  | 44 => ⟨S1350000x1, .i32⟩
  | 45 => ⟨S1350000, .f32⟩
  | 46 => ⟨S_, .i32⟩
  | 47 => ⟨S1350000, .i32⟩
  | 48 => ⟨S1350000, .i1⟩
  | 49 => ⟨S_, .i32⟩
  | 50 => ⟨S1350000, .i32⟩
  | 51 => ⟨S1350000, .i32⟩
  | 52 => ⟨S1350000, .i32⟩
  | 53 => ⟨S1350000x1, .i32⟩
  | 54 => ⟨S1350000, .f32⟩
  | 55 => ⟨S1350000, .f32⟩
  | 56 => ⟨S_, .f32⟩
  | 57 => ⟨S100000x64, .f32⟩
  | 58 => ⟨S1350000x1, .f32⟩
  | 59 => ⟨S_, .i32⟩
  | 60 => ⟨S1350000, .i32⟩
  | 61 => ⟨S1350000, .i1⟩
  | 62 => ⟨S_, .i32⟩
  | 63 => ⟨S1350000, .i32⟩
  | 64 => ⟨S1350000, .i32⟩
  | 65 => ⟨S1350000, .i32⟩
  | 66 => ⟨S1350000x1, .i32⟩
  | 67 => ⟨S1350000x64, .f32⟩
  | 68 => ⟨S1350000x64, .f32⟩
  | 69 => ⟨S1350000x64, .f32⟩
  | 70 => ⟨S_, .i32⟩
  | 71 => ⟨S1350000, .i32⟩
  | 72 => ⟨S1350000, .i1⟩
  | 73 => ⟨S_, .i32⟩
  | 74 => ⟨S1350000, .i32⟩
  | 75 => ⟨S1350000, .i32⟩
  | 76 => ⟨S1350000, .i32⟩
  | 77 => ⟨S1350000x1, .i32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S100000, .i32⟩
  | 87 => ⟨S1350000, .i32⟩
  | 88 => ⟨S1350000, .i32⟩
  | 89 => ⟨S_, .f32⟩
  | 90 => ⟨S100000, .f32⟩
  | 91 => ⟨S_, .i32⟩
  | 92 => ⟨S1350000, .i32⟩
  | 93 => ⟨S1350000, .i1⟩
  | 94 => ⟨S_, .i32⟩
  | 95 => ⟨S1350000, .i32⟩
  | 96 => ⟨S1350000, .i32⟩
  | 97 => ⟨S1350000, .i32⟩
  | 98 => ⟨S1350000x1, .i32⟩
  | 99 => ⟨S_, .f32⟩
  | 100 => ⟨S1350000, .f32⟩
  | 101 => ⟨S100000, .f32⟩
  | 102 => ⟨S_, .f32⟩
  | 103 => ⟨S100000, .f32⟩
  | 104 => ⟨S100000, .i1⟩
  | 105 => ⟨S100000, .f32⟩
  | 106 => ⟨S_, .f32⟩
  | 107 => ⟨S_, .f32⟩
  | 108 => ⟨S100000, .f32⟩
  | 109 => ⟨S100000, .f32⟩
  | 110 => ⟨S_, .i32⟩
  | 111 => ⟨S1350000, .i32⟩
  | 112 => ⟨S1350000, .i1⟩
  | 113 => ⟨S_, .i32⟩
  | 114 => ⟨S1350000, .i32⟩
  | 115 => ⟨S1350000, .i32⟩
  | 116 => ⟨S1350000, .i32⟩
  | 117 => ⟨S1350000x1, .i32⟩
  | 118 => ⟨S1350000, .f32⟩
  | 119 => ⟨S_, .i32⟩
  | 120 => ⟨S1350000, .i32⟩
  | 121 => ⟨S1350000, .i1⟩
  | 122 => ⟨S_, .i32⟩
  | 123 => ⟨S1350000, .i32⟩
  | 124 => ⟨S1350000, .i32⟩
  | 125 => ⟨S1350000, .i32⟩
  | 126 => ⟨S1350000x1, .i32⟩
  | 127 => ⟨S1350000, .f32⟩
  | _ => ⟨S100000x64, .f32⟩

abbrev hbmTy0_1 (i : Nat) : BufTy := match i % 128 with
  | 0 => ⟨S1350000, .f32⟩
  | 1 => ⟨S_, .f32⟩
  | 2 => ⟨S100000x64, .f32⟩
  | 3 => ⟨S1350000x1, .f32⟩
  | 4 => ⟨S_, .i32⟩
  | 5 => ⟨S1350000, .i32⟩
  | 6 => ⟨S1350000, .i1⟩
  | 7 => ⟨S_, .i32⟩
  | 8 => ⟨S1350000, .i32⟩
  | 9 => ⟨S1350000, .i32⟩
  | 10 => ⟨S1350000, .i32⟩
  | 11 => ⟨S1350000x1, .i32⟩
  | 12 => ⟨S1350000x64, .f32⟩
  | 13 => ⟨S1350000x64, .f32⟩
  | 14 => ⟨S1350000x64, .f32⟩
  | 15 => ⟨S_, .i32⟩
  | 16 => ⟨S1350000, .i32⟩
  | 17 => ⟨S1350000, .i1⟩
  | 18 => ⟨S_, .i32⟩
  | 19 => ⟨S1350000, .i32⟩
  | 20 => ⟨S1350000, .i32⟩
  | 21 => ⟨S1350000, .i32⟩
  | 22 => ⟨S1350000x1, .i32⟩
  | 23 => ⟨S100000x64, .f32⟩
  | 24 => ⟨S1x64, .f32⟩
  | 25 => ⟨S100000x64, .f32⟩
  | 26 => ⟨S100000x64, .f32⟩
  | 27 => ⟨S1x500000, .i32⟩
  | 28 => ⟨S500000, .i32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x64, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x64, .f32⟩
  | 49 => ⟨S500000x64, .f32⟩
  | 50 => ⟨S_, .f32⟩
  | 51 => ⟨S500000, .f32⟩
  | 52 => ⟨S1x500000, .i32⟩
  | 53 => ⟨S500000, .i32⟩
  | 54 => ⟨S1x500000, .i32⟩
  | 55 => ⟨S500000, .i32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x64, .f32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x64, .f32⟩
  | 74 => ⟨S500000x64, .f32⟩
  | 75 => ⟨S_, .f32⟩
  | 76 => ⟨S500000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_c_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_v70 : Ref sig .tc := ⟨.hbm, 101, rfl⟩
abbrev main_cst_17 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_18 : Ref sig .tc := ⟨.hbm, 106, rfl⟩
abbrev main_call2_v0 : Ref sig .tc := ⟨.hbm, 107, rfl⟩
abbrev main_call2_v1 : Ref sig .tc := ⟨.hbm, 108, rfl⟩
abbrev main_v74 : Ref sig .tc := ⟨.hbm, 109, rfl⟩
abbrev main_c_19 : Ref sig .tc := ⟨.hbm, 110, rfl⟩
abbrev main_v75 : Ref sig .tc := ⟨.hbm, 111, rfl⟩
abbrev main_v76 : Ref sig .tc := ⟨.hbm, 112, rfl⟩
abbrev main_c_20 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_21 : Ref sig .tc := ⟨.hbm, 119, rfl⟩
abbrev main_v82 : Ref sig .tc := ⟨.hbm, 120, rfl⟩
abbrev main_v83 : Ref sig .tc := ⟨.hbm, 121, rfl⟩
abbrev main_c_22 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_23 : Ref sig .tc := ⟨.hbm, 129, rfl⟩
abbrev main_v90 : Ref sig .tc := ⟨.hbm, 130, rfl⟩
abbrev main_v91 : Ref sig .tc := ⟨.hbm, 131, rfl⟩
abbrev main_c_24 : Ref sig .tc := ⟨.hbm, 132, rfl⟩
abbrev main_v92 : Ref sig .tc := ⟨.hbm, 133, rfl⟩
abbrev main_v93 : Ref sig .tc := ⟨.hbm, 134, rfl⟩
abbrev main_c_25 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c_26 : Ref sig .tc := ⟨.hbm, 143, rfl⟩
abbrev main_v101 : Ref sig .tc := ⟨.hbm, 144, rfl⟩
abbrev main_v102 : Ref sig .tc := ⟨.hbm, 145, rfl⟩
abbrev main_c_27 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_c_28 : Ref sig .tc := ⟨.hbm, 159, rfl⟩
abbrev main_v115 : Ref sig .tc := ⟨.hbm, 160, rfl⟩
abbrev main_v116 : Ref sig .tc := ⟨.hbm, 161, rfl⟩
abbrev main_c_29 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_c_30 : Ref sig .tc := ⟨.hbm, 168, rfl⟩
abbrev main_v122 : Ref sig .tc := ⟨.hbm, 169, rfl⟩
abbrev main_v123 : Ref sig .tc := ⟨.hbm, 170, rfl⟩
abbrev main_c_31 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_32 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_c_33 : Ref sig .tc := ⟨.hbm, 184, rfl⟩
abbrev main_v135 : Ref sig .tc := ⟨.hbm, 185, rfl⟩
abbrev main_v136 : Ref sig .tc := ⟨.hbm, 186, rfl⟩
abbrev main_c_34 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_c_35 : Ref sig .tc := ⟨.hbm, 193, rfl⟩
abbrev main_v142 : Ref sig .tc := ⟨.hbm, 194, rfl⟩
abbrev main_v143 : Ref sig .tc := ⟨.hbm, 195, rfl⟩
abbrev main_c_36 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_37 : Ref sig .tc := ⟨.hbm, 203, rfl⟩
abbrev main_v150 : Ref sig .tc := ⟨.hbm, 204, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  concatenates_S1250000_S100000_S1350000_d0 : Shape.Concatenates [S1250000, S100000] S1350000 0
  bcast_S_S100000 : S_.BroadcastsInDim S100000 (![] : Fin 0 → Fin S100000.rank)
  bcast_S_S1350000 : S_.BroadcastsInDim S1350000 (![] : Fin 0 → Fin S1350000.rank)
  bcast_S1350000_S1350000x1_0 : S1350000.BroadcastsInDim S1350000x1 (![0] : Fin 1 → Fin S1350000x1.rank)
  bcast_S_S100000x64 : S_.BroadcastsInDim S100000x64 (![] : Fin 0 → Fin S100000x64.rank)
  bcast_S1350000x1_S1350000x64_0_1 : S1350000x1.BroadcastsInDim S1350000x64 (![0, 1] : Fin 2 → Fin S1350000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  dot_S100000x64_S64x64_S100000x64_1_0_0_1_n_n_wf : DotDims.WF S100000x64 S64x64 S100000x64 [1] [0] [0] [1] [] []
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  gather_S100000x64_S500000x1_S500000x64_1_0_n_n_0_1_164_wf : GatherDims.WF S100000x64 S500000x1 S500000x64 [1] [0] [] [0] [] 1 ![1, 64]

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

class Facts : Prop extends Facts₀ where

variable [Facts]
-- ==== Proof.KRun.lean ====
/-
  The idealized kernel program's run, read at its two result buffers.

  The generated frame theorem runs the program's eight segments (host stretches and the four pipelined
  regions) from the launch memory and reads the argument buffers out of the last thread state.  The last
  thread state holds EVERY unscoped buffer at the last boundary's contents, so the same run also gives
  the two result buffers at those contents; this file states that.
-/
import proofs.«111890_j66211215835754_2_alg».proof.Proof.Gen.KernelIdeal.Frame
import Idealize.ShloMosaic.PureOps.Ideal

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch lemma's implicit arguments are found by unifying its conclusion with this one, which takes unfolding
-- plain definitions in a metavariable's type
set_option backward.isDefEq.respectTransparency.types false in
/-- From any memory with zero counters, every weakly fair execution of the program on the TensorCores
    terminates without fault, and in every final state the two result buffers hold the last boundary's
    contents and the eight argument buffers are as launched. -/
theorem run_results : θ_run defs (onTc (τ := τ) (main (F := Ideal))) ⟨m, fun _ => 0, ρ⟩ (fun r => ∀ c : Dev nD,
      r.2.mem ((c.tc : Thread nD τ).loc main_v76) = Gen.W8 m ρ c (Proc.devRef .tc main_v76)
      ∧ r.2.mem ((c.tc : Thread nD τ).loc main_v92) = Gen.W8 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v76 (by decide)),
       h c _ (mem_uc main_v92 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Regions

end
-- ==== Proof.Spec.lean ====
/-
  The two-layer graph convolution both programs compute, as whole-array functions on the extended reals.

  A node array is 100000 x 64; `D` holds one nonnegative scale per node (the inverse square root of its degree,
  self-loop counted), kept as a 100000 x 1 column.
  * `prescale X W D` is the row-scaled product: entry (r, k) is (sum over j of X(r, j) * W(j, k)) * D(r).
  * `combine A H D B` is the affine recombination: entry (r, k) is D(r) * (A(r, k) + H(r, k)) + B(k);
    `combineRelu` is the same followed by the positive part.
-/
import Idealize.ShloMosaic.PureOps.Ideal
import Idealize.ShloMosaic.Lib.ValueIdx

noncomputable section

namespace Cert.GcnSpec

open Idealize.ShloMosaic Idealize.ShloMosaic.ValueIdx
open scoped BigOperators

/-- Node features: 100000 rows of 64. -/
abbrev SNodes : Shape := ⟨2, ![100000, 64]⟩
/-- A weight matrix, 64 x 64. -/
abbrev SWeight : Shape := ⟨2, ![64, 64]⟩
/-- One value per node, as a column. -/
abbrev SCol : Shape := ⟨2, ![100000, 1]⟩
/-- A bias as a row of 64. -/
abbrev SRow : Shape := ⟨2, ![1, 64]⟩

/-- The row-scaled product `(X · W)(r, k) · D(r)`. -/
def prescale (X : SNodes.Idx → EReal) (W : SWeight.Idx → EReal) (D : SCol.Idx → EReal) : SNodes.Idx → EReal :=
  fun i => (∑ j : Fin 64, X (ix2 (i 0) j) * W (ix2 j (i 1))) * D (ix2 (i 0) 0)

/-- `D(r) · (A(r, k) + H(r, k)) + B(k)`. -/
def combine (A H : SNodes.Idx → EReal) (D : SCol.Idx → EReal) (B : SRow.Idx → EReal) : SNodes.Idx → EReal :=
  fun i => D (ix2 (i 0) 0) * (A i + H i) + B (ix2 0 (i 1))

/-- The positive part of `combine`. -/
def combineRelu (A H : SNodes.Idx → EReal) (D : SCol.Idx → EReal) (B : SRow.Idx → EReal) : SNodes.Idx → EReal :=
  fun i => max (combine A H D B i) 0

end Cert.GcnSpec

end
-- ==== Proof.KHostDefs.lean ====
/-
  The host-side pieces of the kernel program as whole-array functions, in the printed program's own dimension records.

  From the edge list `A1 : 2 x 1250000` (row 0 the sources, row 1 the destinations, 32-bit words):
  * `srcW`, `dstW` are its two rows; `idxCol v` is `v` with negative words shifted up by 100000 (Python-style indexing), as a column;
  * `dinvCol A1` is the column of inverse square roots of (number of edges arriving at a node) + 1;
  * `agg Hs A1` adds, into each destination node's row, the source node's row of `Hs` for every edge;
  * `biasRow b` is a bias as a 1 x 64 row; `decode Z P` is the dot product of the two rows of `Z` an index pair names.
  `zK` is the two-layer network built from them and Spec.lean's `prescale` / `combine` / `combineRelu`.
-/
import proofs.«111890_j66211215835754_2_alg».proof.Proof.Gen.KernelIdeal
import proofs.«111890_j66211215835754_2_alg».proof.Proof.Spec
import Idealize.ShloMosaic.PureOps.Ideal

noncomputable section

namespace Cert.KernelIdeal.HostVals

open Cert.KernelIdeal Cert.KernelIdeal.Facts₀ Idealize.ShloMosaic Idealize.ShloMosaic.ValueIdx Cert.GcnSpec
open scoped BigOperators

variable {F : FTy → Type} [FloatOps F]

/-- Row 0 of the edge list: the source node of each edge. -/
def srcW (A1 : S2x1250000.Idx → BitVec 32) : S1250000.Idx → BitVec 32 :=
  shapeCast S1250000 (extractStridedSlice S1x1250000 ![0, 0] A1 slices_S2x1250000_S1x1250000_0_0) shapeCasts_S1x1250000_S1250000

/-- Row 1 of the edge list: the destination node of each edge. -/
def dstW (A1 : S2x1250000.Idx → BitVec 32) : S1250000.Idx → BitVec 32 :=
  shapeCast S1250000 (extractStridedSlice S1x1250000 ![1, 0] A1 slices_S2x1250000_S1x1250000_1_0) shapeCasts_S1x1250000_S1250000

/-- Negative words shifted up by the node count, then laid out as a column of start indices. -/
def idxCol (v : S1250000.Idx → BitVec 32) : S1250000x1.Idx → BitVec 32 :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 100000#32))) v)

/-- In-degree plus one (the self-loop), per node. -/
def degK (A1 : S2x1250000.Idx → BitVec 32) : S100000.Idx → F .f32 :=
  addf
    (Host.scatterAdd scatter_S100000_S1250000x1_S1250000_n_0_0_1
      (broadcastInDim S100000 ![] bcast_S_S100000 (constant (F := F) S_ .f32 0x00000000#32))
      (idxCol (dstW A1))
      (broadcastInDim S1250000 ![] bcast_S_S1250000 (constant (F := F) S_ .f32 0x3F800000#32)))
    (broadcastInDim S100000 ![] bcast_S_S100000 (constant (F := F) S_ .f32 0x3F800000#32))

/-- The inverse square root of the degree, as a column. -/
def dinvCol (A1 : S2x1250000.Idx → BitVec 32) : S100000x1.Idx → F .f32 :=
  shapeCast S100000x1 (Host.rsqrt (degK (F := F) A1)) shapeCasts_S100000_S100000x1

/-- Scatter-add of the gathered source rows onto the destination rows. -/
def agg (Hs : S100000x64.Idx → F .f32) (A1 : S2x1250000.Idx → BitVec 32) : S100000x64.Idx → F .f32 :=
  Host.scatterAdd scatter_S100000x64_S1250000x1_S1250000x64_1_0_0_1
    (broadcastInDim S100000x64 ![] bcast_S_S100000x64 (constant (F := F) S_ .f32 0x00000000#32))
    (idxCol (dstW A1))
    (Host.gather gather_S100000x64_S1250000x1_S1250000x64_1_0_n_n_0_1_164 Hs (idxCol (srcW A1)))

/-- A bias vector as a 1 x 64 row. -/
def biasRow (b : S64.Idx → F .f32) : S1x64.Idx → F .f32 := shapeCast S1x64 b shapeCasts_S64_S1x64

/-- The node edge `e` arrives at, as the scatter reads it: the shifted destination word, signed, not clamped. -/
def tdst (A1 : S2x1250000.Idx → BitVec 32) (e : Fin 1250000) : Int := (idxCol (dstW A1) (ix2 e 0)).toInt

/-- The node edge `e` leaves from, before the gather's clamp: the shifted source word, signed. -/
def tsrc (A1 : S2x1250000.Idx → BitVec 32) (e : Fin 1250000) : Int := (idxCol (srcW A1) (ix2 e 0)).toInt

/-- A signed start index clamped into the node range, as a gather clamps it. -/
def clampN (z : Int) : Fin 100000 := ⟨min z.toNat (100000 - 1), by omega⟩

/-- The plain matrix product `(X · W)(n, k)`. -/
def xw (X : S100000x64.Idx → EReal) (W : S64x64.Idx → EReal) (n : Fin 100000) (k : Fin 64) : EReal :=
  ∑ j : Fin 64, X (ix2 n j) * W (ix2 j k)

/-- The two-layer network, at the ideal instance. -/
def zK (A0 : S100000x64.Idx → EReal) (A1 : S2x1250000.Idx → BitVec 32) (A4 : S64x64.Idx → EReal) (A5 : S64.Idx → EReal)
    (A6 : S64x64.Idx → EReal) (A7 : S64.Idx → EReal) : S100000x64.Idx → EReal :=
  let D := dinvCol (F := Ideal) A1
  let hs1 := prescale A0 A4 D
  let hmid := combineRelu (agg (F := Ideal) hs1 A1) hs1 D (biasRow (F := Ideal) A5)
  let hs2 := prescale hmid A6 D
  combine (agg (F := Ideal) hs2 A1) hs2 D (biasRow (F := Ideal) A7)

end Cert.KernelIdeal.HostVals

end
-- ==== Proof.KHost.lean ====
/-
  The kernel run's buffer contents at each boundary, read back to the launch contents: what each host stretch computes
  (the degree scale, the scatter-added aggregates, the bias rows) and what it leaves alone.
-/
import proofs.«111890_j66211215835754_2_alg».proof.Proof.Gen.KernelIdeal.Frame
import proofs.«111890_j66211215835754_2_alg».proof.Proof.KHostDefs
import Idealize.ShloMosaic.Lib.StableHlo.Run

set_option maxRecDepth 16384

noncomputable section

namespace Cert.KernelIdeal.HostVals

open Cert.KernelIdeal Cert.KernelIdeal.Gen Cert.KernelIdeal.Facts₀ Idealize.ShloMosaic Idealize.ShloMosaic.TcCoe Idealize.SL.Sem
open Idealize.ShloMosaic.StableHlo Cert.GcnSpec

variable (m : (ℓ : Loc nD τ sig) → Buf (Elt Ideal) ℓ) (ρ : Dev nD → PrngReg) (c : Dev nD)

/-- The first host stretch read at one buffer. -/
local macro "stretch0" : tactic => `(tactic| (dsimp only [Gen.W1, Gen.hostOps0]; after_results_simp <;> rfl))
/-- The second host stretch (between regions 0 and 1). -/
local macro "stretch1" : tactic => `(tactic| (dsimp only [Gen.W3, Gen.hostOps1]; after_results_simp <;> rfl))
/-- The third host stretch (between regions 2 and 3). -/
local macro "stretch3" : tactic => `(tactic| (dsimp only [Gen.W6, Gen.hostOps3]; after_results_simp <;> rfl))

/-! ## Region 0's entry: after the first host stretch -/

theorem W1_arg0 : Gen.W1 m ρ c (Proc.devRef .tc main_arg0) = m ((c : Thread nD τ).loc main_arg0) := by stretch0
theorem W1_arg4 : Gen.W1 m ρ c (Proc.devRef .tc main_arg4) = m ((c : Thread nD τ).loc main_arg4) := by stretch0
theorem W1_arg5 : Gen.W1 m ρ c (Proc.devRef .tc main_arg5) = m ((c : Thread nD τ).loc main_arg5) := by stretch0
theorem W1_arg6 : Gen.W1 m ρ c (Proc.devRef .tc main_arg6) = m ((c : Thread nD τ).loc main_arg6) := by stretch0
theorem W1_arg7 : Gen.W1 m ρ c (Proc.devRef .tc main_arg7) = m ((c : Thread nD τ).loc main_arg7) := by stretch0
theorem W1_v1 : Gen.W1 m ρ c (Proc.devRef .tc main_v1) = srcW (m ((c : Thread nD τ).loc main_arg1)) := by stretch0
theorem W1_v3 : Gen.W1 m ρ c (Proc.devRef .tc main_v3) = dstW (m ((c : Thread nD τ).loc main_arg1)) := by stretch0
theorem W1_v16 : Gen.W1 m ρ c (Proc.devRef .tc main_v16) = dinvCol (F := Ideal) (m ((c : Thread nD τ).loc main_arg1)) := by stretch0

/-! ## Across region 0 -/

theorem W2_v1 : Gen.W2 m ρ c (Proc.devRef .tc main_v1) = Gen.W1 m ρ c (Proc.devRef .tc main_v1) := Gen.W2_of_ne m ρ c main_v1 (by decide)
theorem W2_v3 : Gen.W2 m ρ c (Proc.devRef .tc main_v3) = Gen.W1 m ρ c (Proc.devRef .tc main_v3) := Gen.W2_of_ne m ρ c main_v3 (by decide)
theorem W2_arg5 : Gen.W2 m ρ c (Proc.devRef .tc main_arg5) = Gen.W1 m ρ c (Proc.devRef .tc main_arg5) := Gen.W2_of_ne m ρ c main_arg5 (by decide)
theorem W2_arg6 : Gen.W2 m ρ c (Proc.devRef .tc main_arg6) = Gen.W1 m ρ c (Proc.devRef .tc main_arg6) := Gen.W2_of_ne m ρ c main_arg6 (by decide)
theorem W2_arg7 : Gen.W2 m ρ c (Proc.devRef .tc main_arg7) = Gen.W1 m ρ c (Proc.devRef .tc main_arg7) := Gen.W2_of_ne m ρ c main_arg7 (by decide)
/-- The scale column is an input window of region 0: it leaves the region as it entered. -/
theorem W2_v16 : Gen.W2 m ρ c (Proc.devRef .tc main_v16) = Gen.W1 m ρ c (Proc.devRef .tc main_v16) :=
  (Gen.W2_arr m ρ c 2).trans (((Gen.dat0 (Gen.V1 m ρ) c).arrAt_in 2 rfl _).trans (Gen.A_eq0 (Gen.V1 m ρ) c 2))

/-! ## Region 1's entry: after the second host stretch -/

theorem W3_v16 : Gen.W3 m ρ c (Proc.devRef .tc main_v16) = Gen.W2 m ρ c (Proc.devRef .tc main_v16) := by stretch1
theorem W3_v17 : Gen.W3 m ρ c (Proc.devRef .tc main_v17) = Gen.W2 m ρ c (Proc.devRef .tc main_v17) := by stretch1
theorem W3_v1 : Gen.W3 m ρ c (Proc.devRef .tc main_v1) = Gen.W2 m ρ c (Proc.devRef .tc main_v1) := by stretch1
theorem W3_v3 : Gen.W3 m ρ c (Proc.devRef .tc main_v3) = Gen.W2 m ρ c (Proc.devRef .tc main_v3) := by stretch1
theorem W3_arg6 : Gen.W3 m ρ c (Proc.devRef .tc main_arg6) = Gen.W2 m ρ c (Proc.devRef .tc main_arg6) := by stretch1
theorem W3_arg7 : Gen.W3 m ρ c (Proc.devRef .tc main_arg7) = Gen.W2 m ρ c (Proc.devRef .tc main_arg7) := by stretch1
theorem W3_v33 : Gen.W3 m ρ c (Proc.devRef .tc main_v33) = biasRow (F := Ideal) (Gen.W2 m ρ c (Proc.devRef .tc main_arg5)) := by stretch1
/-- The first aggregate: the scatter-add of the gathered rows of region 0's result, over the edge words as the stretch finds them. -/
theorem W3_v32_raw : Gen.W3 m ρ c (Proc.devRef .tc main_v32)
    = Host.scatterAdd (F := Ideal) scatter_S100000x64_S1250000x1_S1250000x64_1_0_0_1
        (broadcastInDim S100000x64 ![] Facts₀.bcast_S_S100000x64 (constant (F := Ideal) S_ .f32 0x00000000#32))
        (idxCol (Gen.W2 m ρ c (Proc.devRef .tc main_v3)))
        (Host.gather gather_S100000x64_S1250000x1_S1250000x64_1_0_n_n_0_1_164 (Gen.W2 m ρ c (Proc.devRef .tc main_v17))
          (idxCol (Gen.W2 m ρ c (Proc.devRef .tc main_v1)))) := by stretch1

/-! ## Across regions 1 and 2 -/

theorem W4_v16 : Gen.W4 m ρ c (Proc.devRef .tc main_v16) = Gen.W3 m ρ c (Proc.devRef .tc main_v16) :=
  (Gen.W4_arr m ρ c 2).trans (((Gen.dat1 (Gen.V3 m ρ) c).arrAt_in 2 rfl _).trans (Gen.A_eq1 (Gen.V3 m ρ) c 2))
theorem W4_v1 : Gen.W4 m ρ c (Proc.devRef .tc main_v1) = Gen.W3 m ρ c (Proc.devRef .tc main_v1) := Gen.W4_of_ne m ρ c main_v1 (by decide)
theorem W4_v3 : Gen.W4 m ρ c (Proc.devRef .tc main_v3) = Gen.W3 m ρ c (Proc.devRef .tc main_v3) := Gen.W4_of_ne m ρ c main_v3 (by decide)
theorem W4_arg6 : Gen.W4 m ρ c (Proc.devRef .tc main_arg6) = Gen.W3 m ρ c (Proc.devRef .tc main_arg6) := Gen.W4_of_ne m ρ c main_arg6 (by decide)
theorem W4_arg7 : Gen.W4 m ρ c (Proc.devRef .tc main_arg7) = Gen.W3 m ρ c (Proc.devRef .tc main_arg7) := Gen.W4_of_ne m ρ c main_arg7 (by decide)

theorem W5_v16 : Gen.W5 m ρ c (Proc.devRef .tc main_v16) = Gen.W4 m ρ c (Proc.devRef .tc main_v16) :=
  (Gen.W5_arr m ρ c 2).trans (((Gen.dat2 (Gen.V4 m ρ) c).arrAt_in 2 rfl _).trans (Gen.A_eq2 (Gen.V4 m ρ) c 2))
theorem W5_v1 : Gen.W5 m ρ c (Proc.devRef .tc main_v1) = Gen.W4 m ρ c (Proc.devRef .tc main_v1) := Gen.W5_of_ne m ρ c main_v1 (by decide)
theorem W5_v3 : Gen.W5 m ρ c (Proc.devRef .tc main_v3) = Gen.W4 m ρ c (Proc.devRef .tc main_v3) := Gen.W5_of_ne m ρ c main_v3 (by decide)
theorem W5_arg7 : Gen.W5 m ρ c (Proc.devRef .tc main_arg7) = Gen.W4 m ρ c (Proc.devRef .tc main_arg7) := Gen.W5_of_ne m ρ c main_arg7 (by decide)

/-! ## Region 3's entry: after the third host stretch -/

theorem W6_v16 : Gen.W6 m ρ c (Proc.devRef .tc main_v16) = Gen.W5 m ρ c (Proc.devRef .tc main_v16) := by stretch3
theorem W6_v35 : Gen.W6 m ρ c (Proc.devRef .tc main_v35) = Gen.W5 m ρ c (Proc.devRef .tc main_v35) := by stretch3
theorem W6_v51 : Gen.W6 m ρ c (Proc.devRef .tc main_v51) = biasRow (F := Ideal) (Gen.W5 m ρ c (Proc.devRef .tc main_arg7)) := by stretch3
theorem W6_v50_raw : Gen.W6 m ρ c (Proc.devRef .tc main_v50)
    = Host.scatterAdd (F := Ideal) scatter_S100000x64_S1250000x1_S1250000x64_1_0_0_1
        (broadcastInDim S100000x64 ![] Facts₀.bcast_S_S100000x64 (constant (F := Ideal) S_ .f32 0x00000000#32))
        (idxCol (Gen.W5 m ρ c (Proc.devRef .tc main_v3)))
        (Host.gather gather_S100000x64_S1250000x1_S1250000x64_1_0_n_n_0_1_164 (Gen.W5 m ρ c (Proc.devRef .tc main_v35))
          (idxCol (Gen.W5 m ρ c (Proc.devRef .tc main_v1)))) := by stretch3

/-! ## The buffers the stretches and regions read, back at the launch contents -/

theorem edge_src_at (W : Valuation τ sig (Elt Ideal)) (h : W (Proc.devRef .tc main_v1) = Gen.W1 m ρ c (Proc.devRef .tc main_v1)) :
    W (Proc.devRef .tc main_v1) = srcW (m ((c : Thread nD τ).loc main_arg1)) := h.trans (W1_v1 m ρ c)

theorem W2_src : Gen.W2 m ρ c (Proc.devRef .tc main_v1) = srcW (m ((c : Thread nD τ).loc main_arg1)) := (W2_v1 m ρ c).trans (W1_v1 m ρ c)
theorem W2_dst : Gen.W2 m ρ c (Proc.devRef .tc main_v3) = dstW (m ((c : Thread nD τ).loc main_arg1)) := (W2_v3 m ρ c).trans (W1_v3 m ρ c)
theorem W5_src : Gen.W5 m ρ c (Proc.devRef .tc main_v1) = srcW (m ((c : Thread nD τ).loc main_arg1)) :=
  (W5_v1 m ρ c).trans ((W4_v1 m ρ c).trans ((W3_v1 m ρ c).trans (W2_src m ρ c)))
theorem W5_dst : Gen.W5 m ρ c (Proc.devRef .tc main_v3) = dstW (m ((c : Thread nD τ).loc main_arg1)) :=
  (W5_v3 m ρ c).trans ((W4_v3 m ρ c).trans ((W3_v3 m ρ c).trans (W2_dst m ρ c)))

/-- The scale column at every region's entry is the launch edge list's. -/
theorem W2_dinv : Gen.W2 m ρ c (Proc.devRef .tc main_v16) = dinvCol (F := Ideal) (m ((c : Thread nD τ).loc main_arg1)) := (W2_v16 m ρ c).trans (W1_v16 m ρ c)
theorem W3_dinv : Gen.W3 m ρ c (Proc.devRef .tc main_v16) = dinvCol (F := Ideal) (m ((c : Thread nD τ).loc main_arg1)) := (W3_v16 m ρ c).trans (W2_dinv m ρ c)
theorem W4_dinv : Gen.W4 m ρ c (Proc.devRef .tc main_v16) = dinvCol (F := Ideal) (m ((c : Thread nD τ).loc main_arg1)) := (W4_v16 m ρ c).trans (W3_dinv m ρ c)
theorem W6_dinv : Gen.W6 m ρ c (Proc.devRef .tc main_v16) = dinvCol (F := Ideal) (m ((c : Thread nD τ).loc main_arg1)) :=
  (W6_v16 m ρ c).trans ((W5_v16 m ρ c).trans (W4_dinv m ρ c))

/-- The first aggregate is `agg` of region 0's result over the launch edge list. -/
theorem W3_agg : Gen.W3 m ρ c (Proc.devRef .tc main_v32)
    = agg (F := Ideal) (Gen.W2 m ρ c (Proc.devRef .tc main_v17)) (m ((c : Thread nD τ).loc main_arg1)) := by
  rw [W3_v32_raw, W2_src, W2_dst]; rfl
/-- The second aggregate is `agg` of region 2's result over the launch edge list. -/
theorem W6_agg : Gen.W6 m ρ c (Proc.devRef .tc main_v50)
    = agg (F := Ideal) (Gen.W5 m ρ c (Proc.devRef .tc main_v35)) (m ((c : Thread nD τ).loc main_arg1)) := by
  rw [W6_v50_raw, W5_src, W5_dst]; rfl

theorem W3_bias : Gen.W3 m ρ c (Proc.devRef .tc main_v33) = biasRow (F := Ideal) (m ((c : Thread nD τ).loc main_arg5)) := by
  rw [W3_v33, W2_arg5, W1_arg5]
theorem W4_w2 : Gen.W4 m ρ c (Proc.devRef .tc main_arg6) = m ((c : Thread nD τ).loc main_arg6) := by
  rw [W4_arg6, W3_arg6, W2_arg6, W1_arg6]
theorem W6_bias : Gen.W6 m ρ c (Proc.devRef .tc main_v51) = biasRow (F := Ideal) (m ((c : Thread nD τ).loc main_arg7)) := by
  rw [W6_v51, W5_arg7, W4_arg7, W3_arg7, W2_arg7, W1_arg7]

end Cert.KernelIdeal.HostVals

end
-- ==== Proof.DecodeDefs.lean ====
/-
  The edge decoder both programs end with: for an index pair list `P : 2 x 500000`, entry `q` is the dot product
  (0 + the sum over the 64 features) of the rows of `Z` named by `P(0, q)` and `P(1, q)` — negative words shifted up by the
  node count, then clamped by the gather.
-/
import proofs.«111890_j66211215835754_2_alg».proof.Proof.KHostDefs

noncomputable section

namespace Cert.KernelIdeal.HostVals

open Cert.KernelIdeal Cert.KernelIdeal.Facts₀ Idealize.ShloMosaic Idealize.ShloMosaic.ValueIdx

/-- Negative words shifted up by the node count, as a column of start indices (500000 of them). -/
def idxCol5 (v : S500000.Idx → BitVec 32) : S500000x1.Idx → BitVec 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

/-- Row 0 of an index pair list. -/
def pairRow0 (P : S2x500000.Idx → BitVec 32) : S500000.Idx → BitVec 32 :=
  shapeCast S500000 (extractStridedSlice S1x500000 ![0, 0] P slices_S2x500000_S1x500000_0_0) shapeCasts_S1x500000_S500000

/-- Row 1 of an index pair list. -/
def pairRow1 (P : S2x500000.Idx → BitVec 32) : S500000.Idx → BitVec 32 :=
  shapeCast S500000 (extractStridedSlice S1x500000 ![1, 0] P slices_S2x500000_S1x500000_1_0) shapeCasts_S1x500000_S500000

/-- The decoder: row-wise dot products of gathered rows of `Z`. -/
def decode (Z : S100000x64.Idx → EReal) (P : S2x500000.Idx → BitVec 32) : S500000.Idx → EReal :=
  Host.reduceAdd (F := Ideal)
    (mulf (Host.gather gather_S100000x64_S500000x1_S500000x64_1_0_n_n_0_1_164 Z (idxCol5 (pairRow0 P)))
      (Host.gather gather_S100000x64_S500000x1_S500000x64_1_0_n_n_0_1_164 Z (idxCol5 (pairRow1 P))))
    (constant (F := Ideal) S_ .f32 0x00000000#32) reducesTo_S500000x64_S500000_d1 h_S_

end Cert.KernelIdeal.HostVals

end
-- ==== Proof.KCommon.lean ====
/-
  The four kernel bodies' arithmetic, read at one entry of a block.

  Two of the bodies multiply a 10000 x 64 block by a 64 x 64 matrix (onto a zero accumulator; the
  narrowing format changes are the identity on extended reals) and scale row r by a column's entry r.
  The other two add two blocks, scale row r by the column's entry r, and add a bias row; one of them
  then takes the positive part.  Each lemma here reads such a payload at the entry (a, b) of the block,
  over variables for the loaded blocks, so that nothing of a block's size is ever evaluated.
-/
import proofs.«111890_j66211215835754_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Idealize.ShloMosaic Idealize.ShloMosaic.TcCoe Idealize.SL.Sem
open Idealize.ShloMosaic.ValueIdx
open Cert.KernelIdeal.Gen
open scoped BigOperators

/-- The zero offsets of a whole-block access, as the constant function. -/
theorem hz : (![0, 0] : Fin 2 → Nat) = fun _ => 0 := funext fun a => by fin_cases a <;> rfl

/-- Row `a` of block `n` (of ten blocks of 10000 rows) is row `10000 n + a` of the array. -/
abbrev rowIx (n : Nat) (hn : n < 10) (a : Fin 10000) : Fin 100000 := ⟨10000 * n + a.val, by have := a.isLt; omega⟩

/-! ## The block product's operand indices -/

/-- The block product's dimension numbers: rows x contraction times contraction x columns. -/
abbrev D64 := dot_S10000x64_S64x64_S10000x64_1_0_0_1_n_n

theorem lhs_D64_0 (i : S10000x64.Idx) (q : D64.contr.Idx) : (D64.lhsIdx i q 0).val = (i 0).val := by
  unfold DotDims.lhsIdx
  rw [dif_neg (show ¬(0 : Fin S10000x64.rank) ∈ D64.lhsBatch by decide), dif_pos (show (0 : Fin S10000x64.rank) ∈ D64.lhsNonContracting by decide)]
  rfl
theorem lhs_D64_1 (i : S10000x64.Idx) (q : D64.contr.Idx) : (D64.lhsIdx i q 1).val = (q ⟨0, by decide⟩).val :=
  D64.lhsIdx_val_of_single rfl i q
theorem rhs_D64_0 (i : S10000x64.Idx) (q : D64.contr.Idx) : (D64.rhsIdx i q 0).val = (q ⟨0, by decide⟩).val :=
  D64.rhsIdx_val_of_single rfl i q
theorem rhs_D64_1 (i : S10000x64.Idx) (q : D64.contr.Idx) : (D64.rhsIdx i q 1).val = (i 1).val := by
  unfold DotDims.rhsIdx
  rw [dif_neg (show ¬(1 : Fin S64x64.rank) ∈ D64.rhsBatch by decide), dif_pos (show (1 : Fin S64x64.rank) ∈ D64.rhsNonContracting by decide)]
  rfl

/-- The block product onto a zero accumulator, read at an entry: the sum over the contracted axis of the
    products of row `a` of the left block with column `b` of the right one. -/
theorem matmul64_apply (x0 : FVec Ideal S10000x64 .f32) (x1 : FVec Ideal S64x64 .f32) (a : Fin 10000) (b : Fin 64) :
    matmul D64 none (truncf .bf16 x0 bitsLt_bf16_f32) (truncf .bf16 x1 bitsLt_bf16_f32) (constant S10000x64 .f32 0x00000000#32) (ix2 a b)
      = ∑ k : Fin 64, x0 (ix2 a k) * x1 (ix2 k b) := by
  simp only [matmul]
  rw [Ideal.matmul_constant_zero_apply, ← Equiv.sum_comp (contrEquiv1 D64 64 rfl rfl).symm]
  refine Finset.sum_congr rfl fun k _ => ?_
  have hk := contrEquiv1_symm_val D64 64 rfl rfl k
  have el : D64.lhsIdx (ix2 a b) ((contrEquiv1 D64 64 rfl rfl).symm k) = ix2 a k := funext fun d => Fin.ext (by
    match d with
    | ⟨0, _⟩ => exact lhs_D64_0 _ _
    | ⟨1, _⟩ => exact (lhs_D64_1 _ _).trans hk)
  have er : D64.rhsIdx (ix2 a b) ((contrEquiv1 D64 64 rfl rfl).symm k) = ix2 k b := funext fun d => Fin.ext (by
    match d with
    | ⟨0, _⟩ => exact (rhs_D64_0 _ _).trans hk
    | ⟨1, _⟩ => exact rhs_D64_1 _ _)
  rw [el, er]
  rfl

/-! ## The two broadcasts -/

/-- A column broadcast across a block reads, at (a, b), the column's entry a. -/
theorem bcastCol_apply (x : FVec Ideal S10000x1 .f32) (a : Fin 10000) (b : Fin 64) :
    broadcastTo S10000x64 x broadcasts_S10000x1_S10000x64 (ix2 a b) = x (ix2 a 0) :=
  broadcastTo_apply x broadcasts_S10000x1_S10000x64 (ix2 a b) (ix2 a 0) (fun d => by
    match d with
    | ⟨0, _⟩ => rfl
    | ⟨1, _⟩ => rfl)

/-- A row broadcast down a block reads, at (a, b), the row's entry b. -/
theorem bcastRow_apply (x : FVec Ideal S1x64 .f32) (a : Fin 10000) (b : Fin 64) :
    broadcastTo S10000x64 x broadcasts_S1x64_S10000x64 (ix2 a b) = x (ix2 0 b) :=
  broadcastTo_apply x broadcasts_S1x64_S10000x64 (ix2 a b) (ix2 0 b) (fun d => by
    match d with
    | ⟨0, _⟩ => rfl
    | ⟨1, _⟩ => rfl)

/-! ## The payloads at an entry -/

/-- The first product body: (x0 · x1)(a, b) scaled by the column's entry a. -/
theorem k0_pay1_apply (x0 : Vec Ideal S10000x64 .f32) (x1 : Vec Ideal S64x64 .f32) (x2 : Vec Ideal S10000x1 .f32)
    (a : Fin 10000) (b : Fin 64) :
    k0_pay1 x0 x1 x2 (ix2 a b) = (∑ k : Fin 64, x0 (ix2 a k) * x1 (ix2 k b)) * x2 (ix2 a 0) := by
  unfold k0_pay1
  simp only [shapeCast_self]
  rw [mulf_apply, matmul64_apply, bcastCol_apply]

/-- The second product body: the same arithmetic. -/
theorem k2_pay1_apply (x0 : Vec Ideal S10000x64 .f32) (x1 : Vec Ideal S64x64 .f32) (x2 : Vec Ideal S10000x1 .f32)
    (a : Fin 10000) (b : Fin 64) :
    k2_pay1 x0 x1 x2 (ix2 a b) = (∑ k : Fin 64, x0 (ix2 a k) * x1 (ix2 k b)) * x2 (ix2 a 0) := by
  unfold k2_pay1
  simp only [shapeCast_self]
  rw [mulf_apply, matmul64_apply, bcastCol_apply]

/-- The first recombining body: the column's entry a times the two blocks' sum at (a, b), plus the bias
    entry b, then the positive part. -/
theorem k1_pay1_apply (x0 x1 : Vec Ideal S10000x64 .f32) (x2 : Vec Ideal S10000x1 .f32) (x3 : Vec Ideal S1x64 .f32)
    (a : Fin 10000) (b : Fin 64) :
    k1_pay1 x0 x1 x2 x3 (ix2 a b) = max (x2 (ix2 a 0) * (x0 (ix2 a b) + x1 (ix2 a b)) + x3 (ix2 0 b)) 0 := by
  unfold k1_pay1
  simp only [shapeCast_self]
  rw [maximumf_apply, addf_apply, mulf_apply, addf_apply, bcastCol_apply, bcastRow_apply, broadcast_apply]
  show max _ (Ideal.ofBits .f32 0x00000000#32) = _
  rw [Ideal.ofBits_zero_f32]

/-- The second recombining body: the same without the positive part. -/
theorem k3_pay1_apply (x0 x1 : Vec Ideal S10000x64 .f32) (x2 : Vec Ideal S10000x1 .f32) (x3 : Vec Ideal S1x64 .f32)
    (a : Fin 10000) (b : Fin 64) :
    k3_pay1 x0 x1 x2 x3 (ix2 a b) = x2 (ix2 a 0) * (x0 (ix2 a b) + x1 (ix2 a b)) + x3 (ix2 0 b) := by
  unfold k3_pay1
  simp only [shapeCast_self]
  rw [addf_apply, mulf_apply, addf_apply, bcastCol_apply, bcastRow_apply]

end Cert.KernelIdeal.Regions

end
-- ==== Proof.KRegion0.lean ====
/-
  Region 0 of the idealized kernel program: a pipelined row-scaled product.

  The region's grid has ten points; at point t the body loads rows 10000 t … 10000 t + 9999 of the node
  array and of the scale column, and the whole 64 x 64 matrix, and stores the block of the row-scaled
  product.  The output's ten blocks tile its array, so after the region the array is the whole-array
  function `GcnSpec.prescale` of the three input arrays as the region finds them.
-/
import proofs.«111890_j66211215835754_2_alg».proof.Proof.Gen.KernelIdeal.Frame
import proofs.«111890_j66211215835754_2_alg».proof.Proof.Spec
import proofs.«111890_j66211215835754_2_alg».proof.Proof.KCommon
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat)
open Idealize.ShloMosaic.ValueIdx
open Cert.KernelIdeal.Gen
open scoped BigOperators

section Point
-- the TensorCore's buffer contents when the region is entered
variable (V : (c : Dev nD) → (b : Ref sig .tc) → Buf (Elt Ideal) ((c : Thread nD τ).loc b))

/-- The grid has ten points. -/
theorem lt10_0 (t : Fin cfg0.N) : t.val < 10 := by
  have h := t.isLt; have hN : cfg0.N = 10 := N_0; omega

/-- The printed index maps over the grid: the three 10000-row windows are at block (t, 0), the matrix's at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What the region leaves in its output array: the row-scaled product of the arrays it reads. -/
abbrev G0 (c : Dev nD) : S100000x64.Idx → EReal :=
  GcnSpec.prescale (V c main_arg0) (V c main_arg4) (V c main_v16)

/-- The row-scaled product at the entry (r, b). -/
theorem prescale_ix2_0 (X : GcnSpec.SNodes.Idx → EReal) (W : GcnSpec.SWeight.Idx → EReal) (D : GcnSpec.SCol.Idx → EReal)
    (r : Fin 100000) (b : Fin 64) :
    GcnSpec.prescale X W D (ix2 r b) = (∑ j : Fin 64, X (ix2 r j) * W (ix2 j b)) * D (ix2 r 0) := rfl

/-- The node window's block at point t is rows 10000 t … of its array. -/
theorem iblk0_0_apply (c : Dev nD) (t : Fin cfg0.N) (a : Fin 10000) (j : Fin 64) :
    (iblk0 V c 0 t : Vec Ideal S10000x64 .f32) (ix2 a j)
      = (V c main_arg0 : S100000x64.Idx → EReal) (ix2 (rowIx t.val (lt10_0 t) a) j) := by
  obtain ⟨e0, e1, -⟩ := idx_facts0 t
  unfold iblk0
  rw [View.read_apply]
  show (V c main_arg0 : S100000x64.Idx → EReal) _ = _
  congr 1
  funext d; apply Fin.ext
  match d with
  | ⟨0, _⟩ => show win0_0.index t (0 : Fin 2) * 10000 + 1 * a.val = 10000 * t.val + a.val; rw [e0]; omega
  | ⟨1, _⟩ => show win0_0.index t (1 : Fin 2) * 64 + 1 * j.val = j.val; rw [e1]; omega

/-- The matrix window's block at every point is the whole matrix. -/
theorem iblk0_1_apply (c : Dev nD) (t : Fin cfg0.N) (i j : Fin 64) :
    (iblk0 V c 1 t : Vec Ideal S64x64 .f32) (ix2 i j) = (V c main_arg4 : S64x64.Idx → EReal) (ix2 i j) := by
  obtain ⟨-, -, e0, e1, -⟩ := idx_facts0 t
  unfold iblk0
  rw [View.read_apply]
  show (V c main_arg4 : S64x64.Idx → EReal) _ = _
  congr 1
  funext d; apply Fin.ext
  match d with
  | ⟨0, _⟩ => show win0_1.index t (0 : Fin 2) * 64 + 1 * i.val = i.val; rw [e0]; omega
  | ⟨1, _⟩ => show win0_1.index t (1 : Fin 2) * 64 + 1 * j.val = j.val; rw [e1]; omega

/-- The scale column's block at point t is rows 10000 t … of the column. -/
theorem iblk0_2_apply (c : Dev nD) (t : Fin cfg0.N) (a : Fin 10000) :
    (iblk0 V c 2 t : Vec Ideal S10000x1 .f32) (ix2 a 0)
      = (V c main_v16 : S100000x1.Idx → EReal) (ix2 (rowIx t.val (lt10_0 t) a) 0) := by
  obtain ⟨-, -, -, -, e0, e1, -⟩ := idx_facts0 t
  unfold iblk0
  rw [View.read_apply]
  show (V c main_v16 : S100000x1.Idx → EReal) _ = _
  congr 1
  funext d; apply Fin.ext
  match d with
  | ⟨0, _⟩ => show win0_2.index t (0 : Fin 2) * 10000 + 1 * a.val = 10000 * t.val + a.val; rw [e0]; omega
  | ⟨1, _⟩ => show win0_2.index t (1 : Fin 2) * 1 + 1 * 0 = 0; rw [e1]

/-- WHAT POINT t WRITES BACK is block t of the row-scaled product. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S10000x1) hz]
  obtain ⟨-, -, -, -, -, -, e0, e1⟩ := idx_facts0 t
  funext y
  obtain ⟨a, b, rfl⟩ : ∃ (a : Fin 10000) (b : Fin 64), y = ix2 a b := ⟨y 0, y 1, eq_ix2 y⟩
  rw [View.read_apply]
  show k0_pay1 (iblk0 V c 0 t) (iblk0 V c 1 t) (iblk0 V c 2 t) (ix2 a b) = G0 V c (((cfg0.win 3).blk t).view.emb (ix2 a b))
  have hemb : ((cfg0.win 3).blk t).view.emb (ix2 a b) = (ix2 (rowIx t.val (lt10_0 t) a) b : S100000x64.Idx) := by
    funext d; apply Fin.ext
    match d with
    | ⟨0, _⟩ => show win0_3.index t (0 : Fin 2) * 10000 + 1 * a.val = 10000 * t.val + a.val; rw [e0]; omega
    | ⟨1, _⟩ => show win0_3.index t (1 : Fin 2) * 64 + 1 * b.val = b.val; rw [e1]; omega
  rw [hemb, k0_pay1_apply, iblk0_2_apply]
  unfold G0
  rw [prescale_ix2_0]
  congr 1
  refine Finset.sum_congr rfl fun j _ => ?_
  rw [iblk0_0_apply, iblk0_1_apply]

/-- THE ARRAY after the region: the row-scaled product of the arrays the region reads, as it finds them
    (every entry is in some point's block: row r is in block r / 10000). -/
theorem final0 (c : Dev nD) : (dat0 V c).arrAt 3 cfg0.N = G0 V c :=
  (dat0 V c).arrAt_eq_of_cover 3 (G0 V c) (fun t _ => flushed0_eq V c t) fun i => by
    have hi0 : (i 0).val < 100000 := (i 0).isLt
    have hi1 : (i 1).val < 64 := (i 1).isLt
    have hq : (i 0).val / 10000 < cfg0.N := by rw [show cfg0.N = 10 from N_0]; omega
    obtain ⟨-, -, -, -, -, -, e0, e1⟩ := idx_facts0 ⟨(i 0).val / 10000, hq⟩
    have e0' : win0_3.index ⟨(i 0).val / 10000, hq⟩ (0 : Fin 2) = (i 0).val / 10000 := e0
    refine ⟨⟨(i 0).val / 10000, hq⟩, flush0_3 _, ?_⟩
    show i ∈ ((View.whole main_v17).slice (win0_3.rect ⟨(i 0).val / 10000, hq⟩)).set
    rw [View.set_slice_whole, Rect.mem_set_unit]
    intro d
    match d with
    | ⟨0, _⟩ =>
      show win0_3.index ⟨(i 0).val / 10000, hq⟩ (0 : Fin 2) * 10000 ≤ (i 0).val ∧ (i 0).val < win0_3.index ⟨(i 0).val / 10000, hq⟩ (0 : Fin 2) * 10000 + 10000
      rw [e0']; omega
    | ⟨1, _⟩ =>
      show win0_3.index ⟨(i 0).val / 10000, hq⟩ (1 : Fin 2) * 64 ≤ (i 1).val ∧ (i 1).val < win0_3.index ⟨(i 0).val / 10000, hq⟩ (1 : Fin 2) * 64 + 64
      rw [e1]; omega

end Point

/-! ## The run's fold at this region -/

variable (m : (ℓ : Loc nD τ sig) → Buf (Elt Ideal) ℓ) (ρ : Dev nD → PrngReg)

/-- At the region's exit its output array is the row-scaled product of its input arrays at the region's entry. -/
theorem region0_array (c : Dev nD) :
    Gen.W2 m ρ c (Proc.devRef .tc main_v17)
      = GcnSpec.prescale (Gen.W1 m ρ c (Proc.devRef .tc main_arg0)) (Gen.W1 m ρ c (Proc.devRef .tc main_arg4)) (Gen.W1 m ρ c (Proc.devRef .tc main_v16)) :=
  (Gen.W2_arr m ρ c 3).trans (final0 (Gen.V1 m ρ) c)

end Cert.KernelIdeal.Regions

end
-- ==== Proof.KRegion1.lean ====
/-
  Region 1 of the idealized kernel program: a pipelined affine recombination with positive part.

  The region's grid has ten points; at point t the body loads rows 10000 t … 10000 t + 9999 of two node
  arrays and of the scale column, and the whole bias row, and stores the block of
  D(r) · (A(r, k) + H(r, k)) + B(k), its positive part taken.  The output's ten blocks tile its array, so after the region
  the array is the whole-array function `GcnSpec.combineRelu` of the four input arrays as the region finds them.
-/
import proofs.«111890_j66211215835754_2_alg».proof.Proof.Gen.KernelIdeal.Frame
import proofs.«111890_j66211215835754_2_alg».proof.Proof.Spec
import proofs.«111890_j66211215835754_2_alg».proof.Proof.KCommon
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat)
open Idealize.ShloMosaic.ValueIdx
open Cert.KernelIdeal.Gen
open scoped BigOperators

section Point
-- the TensorCore's buffer contents when the region is entered
variable (V : (c : Dev nD) → (b : Ref sig .tc) → Buf (Elt Ideal) ((c : Thread nD τ).loc b))

/-- The grid has ten points. -/
theorem lt10_1 (t : Fin cfg1.N) : t.val < 10 := by
  have h := t.isLt; have hN : cfg1.N = 10 := N_1; omega

/-- The printed index maps over the grid: the four 10000-row windows are at block (t, 0), the bias row's at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the region leaves in its output array: the recombination of the arrays it reads. -/
abbrev G1 (c : Dev nD) : S100000x64.Idx → EReal :=
  GcnSpec.combineRelu (V c main_v32) (V c main_v17) (V c main_v16) (V c main_v33)

/-- The recombination at the entry (r, b). -/
theorem combineRelu_ix2_1 (A H : GcnSpec.SNodes.Idx → EReal) (D : GcnSpec.SCol.Idx → EReal) (B : GcnSpec.SRow.Idx → EReal)
    (r : Fin 100000) (b : Fin 64) :
    GcnSpec.combineRelu A H D B (ix2 r b) = max (D (ix2 r 0) * (A (ix2 r b) + H (ix2 r b)) + B (ix2 0 b)) 0 := rfl

/-- The first node window's block at point t is rows 10000 t … of its array. -/
theorem iblk1_0_apply (c : Dev nD) (t : Fin cfg1.N) (a : Fin 10000) (j : Fin 64) :
    (iblk1 V c 0 t : Vec Ideal S10000x64 .f32) (ix2 a j)
      = (V c main_v32 : S100000x64.Idx → EReal) (ix2 (rowIx t.val (lt10_1 t) a) j) := by
  obtain ⟨e0, e1, -⟩ := idx_facts1 t
  unfold iblk1
  rw [View.read_apply]
  show (V c main_v32 : S100000x64.Idx → EReal) _ = _
  congr 1
  funext d; apply Fin.ext
  match d with
  | ⟨0, _⟩ => show win1_0.index t (0 : Fin 2) * 10000 + 1 * a.val = 10000 * t.val + a.val; rw [e0]; omega
  | ⟨1, _⟩ => show win1_0.index t (1 : Fin 2) * 64 + 1 * j.val = j.val; rw [e1]; omega

/-- The second node window's block at point t is rows 10000 t … of its array. -/
theorem iblk1_1_apply (c : Dev nD) (t : Fin cfg1.N) (a : Fin 10000) (j : Fin 64) :
    (iblk1 V c 1 t : Vec Ideal S10000x64 .f32) (ix2 a j)
      = (V c main_v17 : S100000x64.Idx → EReal) (ix2 (rowIx t.val (lt10_1 t) a) j) := by
  obtain ⟨-, -, e0, e1, -⟩ := idx_facts1 t
  unfold iblk1
  rw [View.read_apply]
  show (V c main_v17 : S100000x64.Idx → EReal) _ = _
  congr 1
  funext d; apply Fin.ext
  match d with
  | ⟨0, _⟩ => show win1_1.index t (0 : Fin 2) * 10000 + 1 * a.val = 10000 * t.val + a.val; rw [e0]; omega
  | ⟨1, _⟩ => show win1_1.index t (1 : Fin 2) * 64 + 1 * j.val = j.val; rw [e1]; omega

/-- The scale column's block at point t is rows 10000 t … of the column. -/
theorem iblk1_2_apply (c : Dev nD) (t : Fin cfg1.N) (a : Fin 10000) :
    (iblk1 V c 2 t : Vec Ideal S10000x1 .f32) (ix2 a 0)
      = (V c main_v16 : S100000x1.Idx → EReal) (ix2 (rowIx t.val (lt10_1 t) a) 0) := by
  obtain ⟨-, -, -, -, e0, e1, -⟩ := idx_facts1 t
  unfold iblk1
  rw [View.read_apply]
  show (V c main_v16 : S100000x1.Idx → EReal) _ = _
  congr 1
  funext d; apply Fin.ext
  match d with
  | ⟨0, _⟩ => show win1_2.index t (0 : Fin 2) * 10000 + 1 * a.val = 10000 * t.val + a.val; rw [e0]; omega
  | ⟨1, _⟩ => show win1_2.index t (1 : Fin 2) * 1 + 1 * 0 = 0; rw [e1]

/-- The bias window's block at every point is the whole row. -/
theorem iblk1_3_apply (c : Dev nD) (t : Fin cfg1.N) (j : Fin 64) :
    (iblk1 V c 3 t : Vec Ideal S1x64 .f32) (ix2 0 j) = (V c main_v33 : S1x64.Idx → EReal) (ix2 0 j) := by
  obtain ⟨-, -, -, -, -, -, e0, e1, -⟩ := idx_facts1 t
  unfold iblk1
  rw [View.read_apply]
  show (V c main_v33 : S1x64.Idx → EReal) _ = _
  congr 1
  funext d; apply Fin.ext
  match d with
  | ⟨0, _⟩ => show win1_3.index t (0 : Fin 2) * 1 + 1 * 0 = 0; rw [e0]
  | ⟨1, _⟩ => show win1_3.index t (1 : Fin 2) * 64 + 1 * j.val = j.val; rw [e1]; omega

/-- WHAT POINT t WRITES BACK is block t of the recombination. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz]
  simp only [View.ld_unit_zero (S := S10000x64) hz, View.ld_unit_zero (S := S1x64) hz, View.ld_unit_zero (S := S10000x1) hz]
  obtain ⟨-, -, -, -, -, -, -, -, e0, e1⟩ := idx_facts1 t
  funext y
  obtain ⟨a, b, rfl⟩ : ∃ (a : Fin 10000) (b : Fin 64), y = ix2 a b := ⟨y 0, y 1, eq_ix2 y⟩
  rw [View.read_apply]
  show k1_pay1 (iblk1 V c 0 t) (iblk1 V c 1 t) (iblk1 V c 2 t) (iblk1 V c 3 t) (ix2 a b) = G1 V c (((cfg1.win 4).blk t).view.emb (ix2 a b))
  have hemb : ((cfg1.win 4).blk t).view.emb (ix2 a b) = (ix2 (rowIx t.val (lt10_1 t) a) b : S100000x64.Idx) := by
    funext d; apply Fin.ext
    match d with
    | ⟨0, _⟩ => show win1_4.index t (0 : Fin 2) * 10000 + 1 * a.val = 10000 * t.val + a.val; rw [e0]; omega
    | ⟨1, _⟩ => show win1_4.index t (1 : Fin 2) * 64 + 1 * b.val = b.val; rw [e1]; omega
  rw [hemb, k1_pay1_apply, iblk1_0_apply, iblk1_1_apply, iblk1_2_apply, iblk1_3_apply]
  unfold G1
  rw [combineRelu_ix2_1]

/-- THE ARRAY after the region: the recombination of the arrays the region reads, as it finds them
    (every entry is in some point's block: row r is in block r / 10000). -/
theorem final1 (c : Dev nD) : (dat1 V c).arrAt 4 cfg1.N = G1 V c :=
  (dat1 V c).arrAt_eq_of_cover 4 (G1 V c) (fun t _ => flushed1_eq V c t) fun i => by
    have hi0 : (i 0).val < 100000 := (i 0).isLt
    have hi1 : (i 1).val < 64 := (i 1).isLt
    have hq : (i 0).val / 10000 < cfg1.N := by rw [show cfg1.N = 10 from N_1]; omega
    obtain ⟨-, -, -, -, -, -, -, -, e0, e1⟩ := idx_facts1 ⟨(i 0).val / 10000, hq⟩
    have e0' : win1_4.index ⟨(i 0).val / 10000, hq⟩ (0 : Fin 2) = (i 0).val / 10000 := e0
    refine ⟨⟨(i 0).val / 10000, hq⟩, flush1_4 _, ?_⟩
    show i ∈ ((View.whole main_v34).slice (win1_4.rect ⟨(i 0).val / 10000, hq⟩)).set
    rw [View.set_slice_whole, Rect.mem_set_unit]
    intro d
    match d with
    | ⟨0, _⟩ =>
      show win1_4.index ⟨(i 0).val / 10000, hq⟩ (0 : Fin 2) * 10000 ≤ (i 0).val ∧ (i 0).val < win1_4.index ⟨(i 0).val / 10000, hq⟩ (0 : Fin 2) * 10000 + 10000
      rw [e0']; omega
    | ⟨1, _⟩ =>
      show win1_4.index ⟨(i 0).val / 10000, hq⟩ (1 : Fin 2) * 64 ≤ (i 1).val ∧ (i 1).val < win1_4.index ⟨(i 0).val / 10000, hq⟩ (1 : Fin 2) * 64 + 64
      rw [e1]; omega

end Point

/-! ## The run's fold at this region -/

variable (m : (ℓ : Loc nD τ sig) → Buf (Elt Ideal) ℓ) (ρ : Dev nD → PrngReg)

/-- At the region's exit its output array is the positive part of the recombination of its input arrays at the region's entry. -/
theorem region1_array (c : Dev nD) :
    Gen.W4 m ρ c (Proc.devRef .tc main_v34)
      = GcnSpec.combineRelu (Gen.W3 m ρ c (Proc.devRef .tc main_v32)) (Gen.W3 m ρ c (Proc.devRef .tc main_v17)) (Gen.W3 m ρ c (Proc.devRef .tc main_v16)) (Gen.W3 m ρ c (Proc.devRef .tc main_v33)) :=
  (Gen.W4_arr m ρ c 4).trans (final1 (Gen.V3 m ρ) c)

end Cert.KernelIdeal.Regions

end
-- ==== Proof.KRegion2.lean ====
/-
  Region 2 of the idealized kernel program: a pipelined row-scaled product.

  The region's grid has ten points; at point t the body loads rows 10000 t … 10000 t + 9999 of the node
  array and of the scale column, and the whole 64 x 64 matrix, and stores the block of the row-scaled
  product.  The output's ten blocks tile its array, so after the region the array is the whole-array
  function `GcnSpec.prescale` of the three input arrays as the region finds them.
-/
import proofs.«111890_j66211215835754_2_alg».proof.Proof.Gen.KernelIdeal.Frame
import proofs.«111890_j66211215835754_2_alg».proof.Proof.Spec
import proofs.«111890_j66211215835754_2_alg».proof.Proof.KCommon
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat)
open Idealize.ShloMosaic.ValueIdx
open Cert.KernelIdeal.Gen
open scoped BigOperators

section Point
-- the TensorCore's buffer contents when the region is entered
variable (V : (c : Dev nD) → (b : Ref sig .tc) → Buf (Elt Ideal) ((c : Thread nD τ).loc b))

/-- The grid has ten points. -/
theorem lt10_2 (t : Fin cfg2.N) : t.val < 10 := by
  have h := t.isLt; have hN : cfg2.N = 10 := N_2; omega

/-- The printed index maps over the grid: the three 10000-row windows are at block (t, 0), the matrix's at (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What the region leaves in its output array: the row-scaled product of the arrays it reads. -/
abbrev G2 (c : Dev nD) : S100000x64.Idx → EReal :=
  GcnSpec.prescale (V c main_v34) (V c main_arg6) (V c main_v16)

/-- The row-scaled product at the entry (r, b). -/
theorem prescale_ix2_2 (X : GcnSpec.SNodes.Idx → EReal) (W : GcnSpec.SWeight.Idx → EReal) (D : GcnSpec.SCol.Idx → EReal)
    (r : Fin 100000) (b : Fin 64) :
    GcnSpec.prescale X W D (ix2 r b) = (∑ j : Fin 64, X (ix2 r j) * W (ix2 j b)) * D (ix2 r 0) := rfl

/-- The node window's block at point t is rows 10000 t … of its array. -/
theorem iblk2_0_apply (c : Dev nD) (t : Fin cfg2.N) (a : Fin 10000) (j : Fin 64) :
    (iblk2 V c 0 t : Vec Ideal S10000x64 .f32) (ix2 a j)
      = (V c main_v34 : S100000x64.Idx → EReal) (ix2 (rowIx t.val (lt10_2 t) a) j) := by
  obtain ⟨e0, e1, -⟩ := idx_facts2 t
  unfold iblk2
  rw [View.read_apply]
  show (V c main_v34 : S100000x64.Idx → EReal) _ = _
  congr 1
  funext d; apply Fin.ext
  match d with
  | ⟨0, _⟩ => show win2_0.index t (0 : Fin 2) * 10000 + 1 * a.val = 10000 * t.val + a.val; rw [e0]; omega
  | ⟨1, _⟩ => show win2_0.index t (1 : Fin 2) * 64 + 1 * j.val = j.val; rw [e1]; omega

/-- The matrix window's block at every point is the whole matrix. -/
theorem iblk2_1_apply (c : Dev nD) (t : Fin cfg2.N) (i j : Fin 64) :
    (iblk2 V c 1 t : Vec Ideal S64x64 .f32) (ix2 i j) = (V c main_arg6 : S64x64.Idx → EReal) (ix2 i j) := by
  obtain ⟨-, -, e0, e1, -⟩ := idx_facts2 t
  unfold iblk2
  rw [View.read_apply]
  show (V c main_arg6 : S64x64.Idx → EReal) _ = _
  congr 1
  funext d; apply Fin.ext
  match d with
  | ⟨0, _⟩ => show win2_1.index t (0 : Fin 2) * 64 + 1 * i.val = i.val; rw [e0]; omega
  | ⟨1, _⟩ => show win2_1.index t (1 : Fin 2) * 64 + 1 * j.val = j.val; rw [e1]; omega

/-- The scale column's block at point t is rows 10000 t … of the column. -/
theorem iblk2_2_apply (c : Dev nD) (t : Fin cfg2.N) (a : Fin 10000) :
    (iblk2 V c 2 t : Vec Ideal S10000x1 .f32) (ix2 a 0)
      = (V c main_v16 : S100000x1.Idx → EReal) (ix2 (rowIx t.val (lt10_2 t) a) 0) := by
  obtain ⟨-, -, -, -, e0, e1, -⟩ := idx_facts2 t
  unfold iblk2
  rw [View.read_apply]
  show (V c main_v16 : S100000x1.Idx → EReal) _ = _
  congr 1
  funext d; apply Fin.ext
  match d with
  | ⟨0, _⟩ => show win2_2.index t (0 : Fin 2) * 10000 + 1 * a.val = 10000 * t.val + a.val; rw [e0]; omega
  | ⟨1, _⟩ => show win2_2.index t (1 : Fin 2) * 1 + 1 * 0 = 0; rw [e1]

/-- WHAT POINT t WRITES BACK is block t of the row-scaled product. -/
theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x64) hz, View.ld_unit_zero (S := S10000x1) hz]
  obtain ⟨-, -, -, -, -, -, e0, e1⟩ := idx_facts2 t
  funext y
  obtain ⟨a, b, rfl⟩ : ∃ (a : Fin 10000) (b : Fin 64), y = ix2 a b := ⟨y 0, y 1, eq_ix2 y⟩
  rw [View.read_apply]
  show k2_pay1 (iblk2 V c 0 t) (iblk2 V c 1 t) (iblk2 V c 2 t) (ix2 a b) = G2 V c (((cfg2.win 3).blk t).view.emb (ix2 a b))
  have hemb : ((cfg2.win 3).blk t).view.emb (ix2 a b) = (ix2 (rowIx t.val (lt10_2 t) a) b : S100000x64.Idx) := by
    funext d; apply Fin.ext
    match d with
    | ⟨0, _⟩ => show win2_3.index t (0 : Fin 2) * 10000 + 1 * a.val = 10000 * t.val + a.val; rw [e0]; omega
    | ⟨1, _⟩ => show win2_3.index t (1 : Fin 2) * 64 + 1 * b.val = b.val; rw [e1]; omega
  rw [hemb, k2_pay1_apply, iblk2_2_apply]
  unfold G2
  rw [prescale_ix2_2]
  congr 1
  refine Finset.sum_congr rfl fun j _ => ?_
  rw [iblk2_0_apply, iblk2_1_apply]

/-- THE ARRAY after the region: the row-scaled product of the arrays the region reads, as it finds them
    (every entry is in some point's block: row r is in block r / 10000). -/
theorem final2 (c : Dev nD) : (dat2 V c).arrAt 3 cfg2.N = G2 V c :=
  (dat2 V c).arrAt_eq_of_cover 3 (G2 V c) (fun t _ => flushed2_eq V c t) fun i => by
    have hi0 : (i 0).val < 100000 := (i 0).isLt
    have hi1 : (i 1).val < 64 := (i 1).isLt
    have hq : (i 0).val / 10000 < cfg2.N := by rw [show cfg2.N = 10 from N_2]; omega
    obtain ⟨-, -, -, -, -, -, e0, e1⟩ := idx_facts2 ⟨(i 0).val / 10000, hq⟩
    have e0' : win2_3.index ⟨(i 0).val / 10000, hq⟩ (0 : Fin 2) = (i 0).val / 10000 := e0
    refine ⟨⟨(i 0).val / 10000, hq⟩, flush2_3 _, ?_⟩
    show i ∈ ((View.whole main_v35).slice (win2_3.rect ⟨(i 0).val / 10000, hq⟩)).set
    rw [View.set_slice_whole, Rect.mem_set_unit]
    intro d
    match d with
    | ⟨0, _⟩ =>
      show win2_3.index ⟨(i 0).val / 10000, hq⟩ (0 : Fin 2) * 10000 ≤ (i 0).val ∧ (i 0).val < win2_3.index ⟨(i 0).val / 10000, hq⟩ (0 : Fin 2) * 10000 + 10000
      rw [e0']; omega
    | ⟨1, _⟩ =>
      show win2_3.index ⟨(i 0).val / 10000, hq⟩ (1 : Fin 2) * 64 ≤ (i 1).val ∧ (i 1).val < win2_3.index ⟨(i 0).val / 10000, hq⟩ (1 : Fin 2) * 64 + 64
      rw [e1]; omega

end Point

/-! ## The run's fold at this region -/

variable (m : (ℓ : Loc nD τ sig) → Buf (Elt Ideal) ℓ) (ρ : Dev nD → PrngReg)

/-- At the region's exit its output array is the row-scaled product of its input arrays at the region's entry. -/
theorem region2_array (c : Dev nD) :
    Gen.W5 m ρ c (Proc.devRef .tc main_v35)
      = GcnSpec.prescale (Gen.W4 m ρ c (Proc.devRef .tc main_v34)) (Gen.W4 m ρ c (Proc.devRef .tc main_arg6)) (Gen.W4 m ρ c (Proc.devRef .tc main_v16)) :=
  (Gen.W5_arr m ρ c 3).trans (final2 (Gen.V4 m ρ) c)

end Cert.KernelIdeal.Regions

end
-- ==== Proof.KRegion3.lean ====
/-
  Region 3 of the idealized kernel program: a pipelined affine recombination.

  The region's grid has ten points; at point t the body loads rows 10000 t … 10000 t + 9999 of two node
  arrays and of the scale column, and the whole bias row, and stores the block of
  D(r) · (A(r, k) + H(r, k)) + B(k).  The output's ten blocks tile its array, so after the region
  the array is the whole-array function `GcnSpec.combine` of the four input arrays as the region finds them.
-/
import proofs.«111890_j66211215835754_2_alg».proof.Proof.Gen.KernelIdeal.Frame
import proofs.«111890_j66211215835754_2_alg».proof.Proof.Spec
import proofs.«111890_j66211215835754_2_alg».proof.Proof.KCommon
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat)
open Idealize.ShloMosaic.ValueIdx
open Cert.KernelIdeal.Gen
open scoped BigOperators

section Point
-- the TensorCore's buffer contents when the region is entered
variable (V : (c : Dev nD) → (b : Ref sig .tc) → Buf (Elt Ideal) ((c : Thread nD τ).loc b))

/-- The grid has ten points. -/
theorem lt10_3 (t : Fin cfg3.N) : t.val < 10 := by
  have h := t.isLt; have hN : cfg3.N = 10 := N_3; omega

/-- The printed index maps over the grid: the four 10000-row windows are at block (t, 0), the bias row's at (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What the region leaves in its output array: the recombination of the arrays it reads. -/
abbrev G3 (c : Dev nD) : S100000x64.Idx → EReal :=
  GcnSpec.combine (V c main_v50) (V c main_v35) (V c main_v16) (V c main_v51)

/-- The recombination at the entry (r, b). -/
theorem combine_ix2_3 (A H : GcnSpec.SNodes.Idx → EReal) (D : GcnSpec.SCol.Idx → EReal) (B : GcnSpec.SRow.Idx → EReal)
    (r : Fin 100000) (b : Fin 64) :
    GcnSpec.combine A H D B (ix2 r b) = D (ix2 r 0) * (A (ix2 r b) + H (ix2 r b)) + B (ix2 0 b) := rfl

/-- The first node window's block at point t is rows 10000 t … of its array. -/
theorem iblk3_0_apply (c : Dev nD) (t : Fin cfg3.N) (a : Fin 10000) (j : Fin 64) :
    (iblk3 V c 0 t : Vec Ideal S10000x64 .f32) (ix2 a j)
      = (V c main_v50 : S100000x64.Idx → EReal) (ix2 (rowIx t.val (lt10_3 t) a) j) := by
  obtain ⟨e0, e1, -⟩ := idx_facts3 t
  unfold iblk3
  rw [View.read_apply]
  show (V c main_v50 : S100000x64.Idx → EReal) _ = _
  congr 1
  funext d; apply Fin.ext
  match d with
  | ⟨0, _⟩ => show win3_0.index t (0 : Fin 2) * 10000 + 1 * a.val = 10000 * t.val + a.val; rw [e0]; omega
  | ⟨1, _⟩ => show win3_0.index t (1 : Fin 2) * 64 + 1 * j.val = j.val; rw [e1]; omega

/-- The second node window's block at point t is rows 10000 t … of its array. -/
theorem iblk3_1_apply (c : Dev nD) (t : Fin cfg3.N) (a : Fin 10000) (j : Fin 64) :
    (iblk3 V c 1 t : Vec Ideal S10000x64 .f32) (ix2 a j)
      = (V c main_v35 : S100000x64.Idx → EReal) (ix2 (rowIx t.val (lt10_3 t) a) j) := by
  obtain ⟨-, -, e0, e1, -⟩ := idx_facts3 t
  unfold iblk3
  rw [View.read_apply]
  show (V c main_v35 : S100000x64.Idx → EReal) _ = _
  congr 1
  funext d; apply Fin.ext
  match d with
  | ⟨0, _⟩ => show win3_1.index t (0 : Fin 2) * 10000 + 1 * a.val = 10000 * t.val + a.val; rw [e0]; omega
  | ⟨1, _⟩ => show win3_1.index t (1 : Fin 2) * 64 + 1 * j.val = j.val; rw [e1]; omega

/-- The scale column's block at point t is rows 10000 t … of the column. -/
theorem iblk3_2_apply (c : Dev nD) (t : Fin cfg3.N) (a : Fin 10000) :
    (iblk3 V c 2 t : Vec Ideal S10000x1 .f32) (ix2 a 0)
      = (V c main_v16 : S100000x1.Idx → EReal) (ix2 (rowIx t.val (lt10_3 t) a) 0) := by
  obtain ⟨-, -, -, -, e0, e1, -⟩ := idx_facts3 t
  unfold iblk3
  rw [View.read_apply]
  show (V c main_v16 : S100000x1.Idx → EReal) _ = _
  congr 1
  funext d; apply Fin.ext
  match d with
  | ⟨0, _⟩ => show win3_2.index t (0 : Fin 2) * 10000 + 1 * a.val = 10000 * t.val + a.val; rw [e0]; omega
  | ⟨1, _⟩ => show win3_2.index t (1 : Fin 2) * 1 + 1 * 0 = 0; rw [e1]

/-- The bias window's block at every point is the whole row. -/
theorem iblk3_3_apply (c : Dev nD) (t : Fin cfg3.N) (j : Fin 64) :
    (iblk3 V c 3 t : Vec Ideal S1x64 .f32) (ix2 0 j) = (V c main_v51 : S1x64.Idx → EReal) (ix2 0 j) := by
  obtain ⟨-, -, -, -, -, -, e0, e1, -⟩ := idx_facts3 t
  unfold iblk3
  rw [View.read_apply]
  show (V c main_v51 : S1x64.Idx → EReal) _ = _
  congr 1
  funext d; apply Fin.ext
  match d with
  | ⟨0, _⟩ => show win3_3.index t (0 : Fin 2) * 1 + 1 * 0 = 0; rw [e0]
  | ⟨1, _⟩ => show win3_3.index t (1 : Fin 2) * 64 + 1 * j.val = j.val; rw [e1]; omega

/-- WHAT POINT t WRITES BACK is block t of the recombination. -/
theorem flushed3_eq (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  unfold out3_4
  rw [View.canon_unit_zero hz]
  simp only [View.ld_unit_zero (S := S10000x64) hz, View.ld_unit_zero (S := S1x64) hz, View.ld_unit_zero (S := S10000x1) hz]
  obtain ⟨-, -, -, -, -, -, -, -, e0, e1⟩ := idx_facts3 t
  funext y
  obtain ⟨a, b, rfl⟩ : ∃ (a : Fin 10000) (b : Fin 64), y = ix2 a b := ⟨y 0, y 1, eq_ix2 y⟩
  rw [View.read_apply]
  show k3_pay1 (iblk3 V c 0 t) (iblk3 V c 1 t) (iblk3 V c 2 t) (iblk3 V c 3 t) (ix2 a b) = G3 V c (((cfg3.win 4).blk t).view.emb (ix2 a b))
  have hemb : ((cfg3.win 4).blk t).view.emb (ix2 a b) = (ix2 (rowIx t.val (lt10_3 t) a) b : S100000x64.Idx) := by
    funext d; apply Fin.ext
    match d with
    | ⟨0, _⟩ => show win3_4.index t (0 : Fin 2) * 10000 + 1 * a.val = 10000 * t.val + a.val; rw [e0]; omega
    | ⟨1, _⟩ => show win3_4.index t (1 : Fin 2) * 64 + 1 * b.val = b.val; rw [e1]; omega
  rw [hemb, k3_pay1_apply, iblk3_0_apply, iblk3_1_apply, iblk3_2_apply, iblk3_3_apply]
  unfold G3
  rw [combine_ix2_3]

/-- THE ARRAY after the region: the recombination of the arrays the region reads, as it finds them
    (every entry is in some point's block: row r is in block r / 10000). -/
theorem final3 (c : Dev nD) : (dat3 V c).arrAt 4 cfg3.N = G3 V c :=
  (dat3 V c).arrAt_eq_of_cover 4 (G3 V c) (fun t _ => flushed3_eq V c t) fun i => by
    have hi0 : (i 0).val < 100000 := (i 0).isLt
    have hi1 : (i 1).val < 64 := (i 1).isLt
    have hq : (i 0).val / 10000 < cfg3.N := by rw [show cfg3.N = 10 from N_3]; omega
    obtain ⟨-, -, -, -, -, -, -, -, e0, e1⟩ := idx_facts3 ⟨(i 0).val / 10000, hq⟩
    have e0' : win3_4.index ⟨(i 0).val / 10000, hq⟩ (0 : Fin 2) = (i 0).val / 10000 := e0
    refine ⟨⟨(i 0).val / 10000, hq⟩, flush3_4 _, ?_⟩
    show i ∈ ((View.whole main_v52).slice (win3_4.rect ⟨(i 0).val / 10000, hq⟩)).set
    rw [View.set_slice_whole, Rect.mem_set_unit]
    intro d
    match d with
    | ⟨0, _⟩ =>
      show win3_4.index ⟨(i 0).val / 10000, hq⟩ (0 : Fin 2) * 10000 ≤ (i 0).val ∧ (i 0).val < win3_4.index ⟨(i 0).val / 10000, hq⟩ (0 : Fin 2) * 10000 + 10000
      rw [e0']; omega
    | ⟨1, _⟩ =>
      show win3_4.index ⟨(i 0).val / 10000, hq⟩ (1 : Fin 2) * 64 ≤ (i 1).val ∧ (i 1).val < win3_4.index ⟨(i 0).val / 10000, hq⟩ (1 : Fin 2) * 64 + 64
      rw [e1]; omega

end Point

/-! ## The run's fold at this region -/

variable (m : (ℓ : Loc nD τ sig) → Buf (Elt Ideal) ℓ) (ρ : Dev nD → PrngReg)

/-- At the region's exit its output array is the recombination of its input arrays at the region's entry. -/
theorem region3_array (c : Dev nD) :
    Gen.W7 m ρ c (Proc.devRef .tc main_v52)
      = GcnSpec.combine (Gen.W6 m ρ c (Proc.devRef .tc main_v50)) (Gen.W6 m ρ c (Proc.devRef .tc main_v35)) (Gen.W6 m ρ c (Proc.devRef .tc main_v16)) (Gen.W6 m ρ c (Proc.devRef .tc main_v51)) :=
  (Gen.W7_arr m ρ c 4).trans (final3 (Gen.V6 m ρ) c)

end Cert.KernelIdeal.Regions

end
-- ==== Proof.KValue.lean ====
/-
  The kernel program's two results as functions of the launch contents: the decoder applied to the two-layer network `zK`.
-/
import proofs.«111890_j66211215835754_2_alg».proof.Proof.KHost
import proofs.«111890_j66211215835754_2_alg».proof.Proof.DecodeDefs
import proofs.«111890_j66211215835754_2_alg».proof.Proof.KRegion0
import proofs.«111890_j66211215835754_2_alg».proof.Proof.KRegion1
import proofs.«111890_j66211215835754_2_alg».proof.Proof.KRegion2
import proofs.«111890_j66211215835754_2_alg».proof.Proof.KRegion3

set_option maxRecDepth 16384

noncomputable section

namespace Cert.KernelIdeal.HostVals

open Cert.KernelIdeal Cert.KernelIdeal.Gen Cert.KernelIdeal.Facts₀ Idealize.ShloMosaic Idealize.ShloMosaic.TcCoe Idealize.SL.Sem
open Idealize.ShloMosaic.StableHlo Cert.GcnSpec

variable (m : (ℓ : Loc nD τ sig) → Buf (Elt Ideal) ℓ) (ρ : Dev nD → PrngReg) (c : Dev nD)

/-- The last host stretch (the decoder) read at one buffer. -/
local macro "stretch4" : tactic => `(tactic| (dsimp only [Gen.W8, Gen.hostOps4]; after_results_simp <;> rfl))

/-- Region 0 leaves the row-scaled product of the features with the first weight matrix. -/
theorem W2_hs1 : Gen.W2 m ρ c (Proc.devRef .tc main_v17)
    = prescale (m ((c : Thread nD τ).loc main_arg0)) (m ((c : Thread nD τ).loc main_arg4)) (dinvCol (F := Ideal) (m ((c : Thread nD τ).loc main_arg1))) := by
  rw [Regions.region0_array, W1_arg0, W1_arg4, W1_v16]

/-- Region 1 leaves the first layer's output (positive part taken). -/
theorem W4_hmid : Gen.W4 m ρ c (Proc.devRef .tc main_v34)
    = combineRelu
        (agg (F := Ideal) (prescale (m ((c : Thread nD τ).loc main_arg0)) (m ((c : Thread nD τ).loc main_arg4)) (dinvCol (F := Ideal) (m ((c : Thread nD τ).loc main_arg1)))) (m ((c : Thread nD τ).loc main_arg1)))
        (prescale (m ((c : Thread nD τ).loc main_arg0)) (m ((c : Thread nD τ).loc main_arg4)) (dinvCol (F := Ideal) (m ((c : Thread nD τ).loc main_arg1))))
        (dinvCol (F := Ideal) (m ((c : Thread nD τ).loc main_arg1))) (biasRow (F := Ideal) (m ((c : Thread nD τ).loc main_arg5))) := by
  rw [Regions.region1_array, W3_agg, W3_v17, W3_dinv, W3_bias, W2_hs1]

/-- Region 3 leaves the two-layer network's output. -/
theorem W7_z : Gen.W7 m ρ c (Proc.devRef .tc main_v52)
    = zK (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)) := by
  rw [Regions.region3_array, W6_agg, W6_v35, W6_dinv, W6_bias, Regions.region2_array, W4_hmid, W4_w2, W4_dinv]
  rfl

theorem W8_arg2 : Gen.W8 m ρ c (Proc.devRef .tc main_arg2) = Gen.W7 m ρ c (Proc.devRef .tc main_arg2) := by stretch4
theorem W8_arg3 : Gen.W8 m ρ c (Proc.devRef .tc main_arg3) = Gen.W7 m ρ c (Proc.devRef .tc main_arg3) := by stretch4

theorem W8_v76_raw : Gen.W8 m ρ c (Proc.devRef .tc main_v76)
    = decode (Gen.W7 m ρ c (Proc.devRef .tc main_v52)) (Gen.W7 m ρ c (Proc.devRef .tc main_arg2)) := by stretch4
theorem W8_v92_raw : Gen.W8 m ρ c (Proc.devRef .tc main_v92)
    = decode (Gen.W7 m ρ c (Proc.devRef .tc main_v52)) (Gen.W7 m ρ c (Proc.devRef .tc main_arg3)) := by stretch4

/-- The first result: the decoder on the positive pairs. -/
theorem out0 : Gen.W8 m ρ c (Proc.devRef .tc main_v76)
    = decode (zK (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)))
        (m ((c : Thread nD τ).loc main_arg2)) := by
  rw [W8_v76_raw, W7_z, ← W8_arg2, Gen.W8_main_arg2]

/-- The second result: the decoder on the negative pairs. -/
theorem out1 : Gen.W8 m ρ c (Proc.devRef .tc main_v92)
    = decode (zK (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)))
        (m ((c : Thread nD τ).loc main_arg3)) := by
  rw [W8_v92_raw, W7_z, ← W8_arg3, Gen.W8_main_arg3]

end Cert.KernelIdeal.HostVals

end
-- ==== Proof.RefShape.lean ====
/-
  The reference program's stages regrouped: its second layer is its first layer's function applied to the first layer's
  output (positive part taken), and its two results are the decoder applied to the second layer's output.
-/
import proofs.«111890_j66211215835754_2_alg».proof.Proof.RefRead
import proofs.«111890_j66211215835754_2_alg».proof.Proof.DecodeDefs
import Idealize.ShloMosaic.Lib.IdealHost
import Idealize.ShloMosaic.PureOps.Ideal.Laws

set_option maxRecDepth 16384

noncomputable section

namespace Cert.RefShape

open Cert.ReferenceIdeal Cert.ReferenceIdeal.ReadP Idealize.ShloMosaic Idealize.ShloMosaic.ValueIdx
open Cert.KernelIdeal.HostVals

/-- The first layer's output with its positive part taken, entry by entry. -/
theorem relu_apply (x0 : (⟨S100000x64, .f32⟩ : BufTy).Contents (Elt Ideal)) (x1 : (⟨S2x1250000, .i32⟩ : BufTy).Contents (Elt Ideal))
    (x4 : (⟨S64x64, .f32⟩ : BufTy).Contents (Elt Ideal)) (x5 : (⟨S64, .f32⟩ : BufTy).Contents (Elt Ideal)) (i : S100000x64.Idx) :
    val_main_v57 (F := Ideal) x0 x1 x4 x5 i = max (val_main_v56 (F := Ideal) x0 x1 x4 x5 i) 0 := by
  unfold val_main_v57 val_main_call1_v0 val_main_call1_cst
  rw [maximumf_apply, broadcastInDim_scalar_apply, constant_apply, Ideal.ofBits_zero_f32]

set_option maxHeartbeats 4000000 in
/-- The second layer is the first layer's function of (the first layer's output, the edge list, the second weights and bias). -/
theorem layer2_eq (x0 : (⟨S100000x64, .f32⟩ : BufTy).Contents (Elt Ideal)) (x1 : (⟨S2x1250000, .i32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) :
    val_main_v110 (F := Ideal) x0 x1 x4 x5 x6 x7 = val_main_v56 (F := Ideal) (val_main_v57 (F := Ideal) x0 x1 x4 x5) x1 x6 x7 := by
  unfold
    val_main_v110 val_main_v109 val_main_v108 val_main_v107 val_main_v106 val_main_v105 val_main_v104 val_main_v103 val_main_c_27 val_main_v102
    val_main_v101 val_main_c_26 val_main_v100 val_main_v99 val_main_v98 val_main_v97 val_main_v96 val_main_v95 val_main_v94 val_main_c_25 val_main_v93
    val_main_v92 val_main_c_24 val_main_v91 val_main_v90 val_main_cst_23 val_main_v89 val_main_v88 val_main_v87 val_main_v86 val_main_v85 val_main_v84
    val_main_c_22 val_main_v83 val_main_v82 val_main_c_21 val_main_v81 val_main_v80 val_main_v79 val_main_v78 val_main_v77 val_main_c_20 val_main_v76
    val_main_v75 val_main_c_19 val_main_v74 val_main_call2_v1 val_main_call2_v0 val_main_cst_18 val_main_v73 val_main_v72 val_main_v71 val_main_cst_17
    val_main_v70 val_main_v69 val_main_cst_16 val_main_v68 val_main_v67 val_main_v66 val_main_v65 val_main_c_15 val_main_v64 val_main_v63
    val_main_c_14 val_main_v62 val_main_cst_13 val_main_v61 val_main_v60 val_main_v59 val_main_v58
  generalize val_main_v57 (F := Ideal) x0 x1 x4 x5 = X
  unfold
    val_main_v56 val_main_v55 val_main_v54 val_main_v53 val_main_v52 val_main_v51 val_main_v50 val_main_v49 val_main_c_12 val_main_v48 val_main_v47
    val_main_c_11 val_main_v46 val_main_v45 val_main_v44 val_main_v43 val_main_v42 val_main_v41 val_main_v40 val_main_c_10 val_main_v39 val_main_v38
    val_main_c_9 val_main_v37 val_main_v36 val_main_cst_8 val_main_v35 val_main_v34 val_main_v33 val_main_v32 val_main_v31 val_main_v30 val_main_c_7
    val_main_v29 val_main_v28 val_main_c_6 val_main_v27 val_main_v26 val_main_v25 val_main_v24 val_main_v23 val_main_c_5 val_main_v22 val_main_v21
    val_main_c_4 val_main_v20 val_main_call0_v1 val_main_call0_v0 val_main_cst_3 val_main_v19 val_main_v18 val_main_v17 val_main_cst_2 val_main_v16
    val_main_v15 val_main_cst_1 val_main_v14 val_main_v13 val_main_v12 val_main_v11 val_main_c_0 val_main_v10 val_main_v9 val_main_c val_main_v8
    val_main_cst val_main_v7 val_main_v6 val_main_v5 val_main_v4
  rfl

set_option maxHeartbeats 4000000 in
/-- The first result is the decoder applied to the second layer's output and the positive pairs. -/
theorem out0_decode (x0 : (⟨S100000x64, .f32⟩ : BufTy).Contents (Elt Ideal)) (x1 : (⟨S2x1250000, .i32⟩ : BufTy).Contents (Elt Ideal))
    (x2 : (⟨S2x500000, .i32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) :
    val_main_v130 (F := Ideal) x0 x1 x2 x4 x5 x6 x7 = decode (val_main_v110 (F := Ideal) x0 x1 x4 x5 x6 x7) x2 := by
  unfold
    val_main_v130 val_main_cst_32 val_main_v129 val_main_v128 val_main_v127 val_main_v126 val_main_v125 val_main_v124 val_main_c_31 val_main_v123
    val_main_v122 val_main_c_30 val_main_v121 val_main_v120 val_main_v119 val_main_v118 val_main_v117 val_main_c_29 val_main_v116 val_main_v115
    val_main_c_28 val_main_v114 val_main_v113 val_main_v112 val_main_v111
  generalize val_main_v110 (F := Ideal) x0 x1 x4 x5 x6 x7 = Z
  unfold decode idxCol5 pairRow0 pairRow1
  rfl

set_option maxHeartbeats 4000000 in
/-- The second result is the decoder applied to the second layer's output and the negative pairs. -/
theorem out1_decode (x0 : (⟨S100000x64, .f32⟩ : BufTy).Contents (Elt Ideal)) (x1 : (⟨S2x1250000, .i32⟩ : BufTy).Contents (Elt Ideal))
    (x3 : (⟨S2x500000, .i32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) :
    val_main_v150 (F := Ideal) x0 x1 x3 x4 x5 x6 x7 = decode (val_main_v110 (F := Ideal) x0 x1 x4 x5 x6 x7) x3 := by
  unfold
    val_main_v150 val_main_cst_37 val_main_v149 val_main_v148 val_main_v147 val_main_v146 val_main_v145 val_main_v144 val_main_c_36 val_main_v143
    val_main_v142 val_main_c_35 val_main_v141 val_main_v140 val_main_v139 val_main_v138 val_main_v137 val_main_c_34 val_main_v136 val_main_v135
    val_main_c_33 val_main_v134 val_main_v133 val_main_v132 val_main_v131
  generalize val_main_v110 (F := Ideal) x0 x1 x4 x5 x6 x7 = Z
  unfold decode idxCol5 pairRow0 pairRow1
  rfl

end Cert.RefShape

end
-- ==== Proof.LibScatterGatherRows.lean ====
/-
  Index-level readings of the host's accumulating scatter and of its gather at the two "row" patterns of
  dimension numbers: a scatter index / start index array of shape [E, 1] whose single component names a ROW
  (axis 0) of the operand.

  * rows pattern: the operand is [N, C], the updates / result are [E, C]; the column is kept.
  * vector pattern: the operand is [N], the updates / result are [E].

  The scatter reads its row SIGNED and does NOT clamp it (an update whose row leaves the operand is dropped);
  the gather reads its row signed and CLAMPS it into [0, N - 1].
-/
import Idealize.ShloMosaic.PureOps.Ideal
import Idealize.ShloMosaic.Lib.ValueIdx

noncomputable section

open scoped BigOperators

namespace Cert.LibScatterGatherRows

open Idealize.ShloMosaic Idealize.ShloMosaic.ValueIdx

/-! ## The scatter's result index, characterised coordinate by coordinate -/

/-- An update index lands on operand index i exactly when, on every operand axis, the signed start plus the
    window coordinate is i's coordinate (in range, then, because i is). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      simp only
      rw [hi a]
      simp
  · rename_i h
    simp only [reduceCtorEq, false_iff]
    intro hi
    apply h
    intro a
    rw [hi a]
    exact ⟨by omega, by exact_mod_cast (i a).isLt⟩

/-! ## Rows pattern: operand [N, C], scatter indices [E, 1], updates [E, C] -/

/-- The scatter's dimension numbers at the rows pattern: the updates' axis 1 is the window axis (the column),
    the operand's axis 0 is inserted and is the one the scatter index names, the index vector is axis 1 of the
    scatter indices. -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat}

/-- On the row axis the start is the scatter index idx[e, 0], read signed. -/
theorem rowsScatter_start_row (wf : ScatterDims.WF ⟨2, ![N, C]⟩ ⟨2, ![E, 1]⟩ ⟨2, ![E, C]⟩ [1] [0] [0] 1)
    (idx : IVec ⟨2, ![E, 1]⟩ w) (e : Fin E) (k : Fin C) :
    (rowsScatter N E C wf).start (ix2 e k) idx 0 = (idx (ix2 e 0)).toInt := by
  unfold ScatterDims.start
  rw [dif_pos (show (0 : Fin 2) ∈ (rowsScatter N E C wf).scatterDimsToOperandDims from List.mem_singleton.mpr rfl)]
  have hsi : (rowsScatter N E C wf).siIdx (ix2 e k) ⟨List.idxOf (0 : Fin 2) (rowsScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the start is 0: the scatter index does not name it. -/
theorem rowsScatter_start_col (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowsScatter N E C wf).start j idx 1 = 0 := by
  unfold ScatterDims.start
  rw [dif_neg (show (1 : Fin 2) ∉ ([0] : List (Fin 2)) by decide)]

/-- On the row axis (inserted) the window coordinate is 0. -/
theorem rowsScatter_window_row (wf : ScatterDims.WF ⟨2, ![N, C]⟩ ⟨2, ![E, 1]⟩ ⟨2, ![E, C]⟩ [1] [0] [0] 1)
    (j : (⟨2, ![E, C]⟩ : Shape).Idx) : (rowsScatter N E C wf).window j 0 = 0 := by
  unfold ScatterDims.window
  have h : (0 : Fin 2) ∉ (rowsScatter N E C wf).sKept :=
    show (0 : Fin 2) ∉ (List.finRange 2).filter (· ∉ ([0] : List (Fin 2))) by decide
  rw [dif_neg h]

/-- On the column axis the window coordinate is the update's column. -/
theorem rowsScatter_window_col (wf : ScatterDims.WF ⟨2, ![N, C]⟩ ⟨2, ![E, 1]⟩ ⟨2, ![E, C]⟩ [1] [0] [0] 1)
    (e : Fin E) (k : Fin C) : (rowsScatter N E C wf).window (ix2 e k) 1 = k.val := by
  unfold ScatterDims.window
  have h : (1 : Fin 2) ∈ (rowsScatter N E C wf).sKept :=
    show (1 : Fin 2) ∈ (List.finRange 2).filter (· ∉ ([0] : List (Fin 2))) by decide
  rw [dif_pos h]
  rfl

/-- An update (e, k') lands on operand (r, k) exactly when its scatter index, read signed, is r and k' = k. -/
theorem rowsScatter_resultIdx?_iff (wf : ScatterDims.WF ⟨2, ![N, C]⟩ ⟨2, ![E, 1]⟩ ⟨2, ![E, C]⟩ [1] [0] [0] 1)
    (idx : IVec ⟨2, ![E, 1]⟩ w) (e : Fin E) (k' : Fin C) (r : Fin N) (k : Fin C) :
    (rowsScatter N E C wf).resultIdx? (ix2 e k') idx = some (ix2 r k) ↔
      ((idx (ix2 e 0)).toInt = (r.val : Int) ∧ k' = k) := by
  rw [resultIdx?_eq_some_iff, Fin.forall_fin_two, rowsScatter_start_row, rowsScatter_start_col, rowsScatter_window_row,
    rowsScatter_window_col]
  constructor
  · rintro ⟨h0, h1⟩
    refine ⟨by simpa using h0, Fin.ext ?_⟩
    have : ((k'.val : Int)) = (k.val : Int) := by simpa using h1
    exact_mod_cast this
  · rintro ⟨h0, rfl⟩
    exact ⟨by simpa using h0, by simp⟩

/-- THE ACCUMULATING SCATTER READ AT (r, k): the operand's element plus the sum of the updates' column k over the
    update rows e whose scatter index idx[e, 0], read signed, is r. Rows outside [0, N) are dropped. -/
theorem scatterAdd_rows_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (k : Fin C) :
    Ideal.hostScatterAdd (rowsScatter N E C wf) x idx upd (ix2 r k) =
      x (ix2 r k) + ∑ e : Fin E, if (idx (ix2 e 0)).toInt = (r.val : Int) then upd (ix2 e k) else 0 := by
  unfold Ideal.hostScatterAdd
  congr 1
  rw [Finset.sum_filter, sum_idx2]
  refine Finset.sum_congr rfl fun e _ => ?_
  simp only [rowsScatter_resultIdx?_iff]
  by_cases hA : (idx (ix2 e 0)).toInt = (r.val : Int)
  · simp [hA]
  · simp [hA]

/-- The gather's dimension numbers at the rows pattern: the result's axis 1 is the offset axis (the column, a
    slice of the whole row), the operand's axis 0 is collapsed and is the one the start index names, the index
    vector is axis 1 of the start indices. -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT (e, k): the operand's column k at the row idx[e, 0], read signed and clamped into
    [0, N - 1]. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsGather N E C wf) x idx (ix2 e k) =
      x (ix2 ⟨min (idx (ix2 e 0)).toInt.toNat (N - 1), by omega⟩ k) := by
  unfold Host.gather
  congr 1
  funext a
  refine Fin.ext ?_
  match a with
  | ⟨0, _⟩ =>
    show (rowsGather N E C wf).start (ix2 e k) idx 0 + (rowsGather N E C wf).batchCoord (ix2 e k) 0 +
      (rowsGather N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E C wf).startIndexMap from List.mem_singleton.mpr rfl)]
    have hsi : (rowsGather N E C wf).siIdx (ix2 e k) ⟨List.idxOf (0 : Fin 2) (rowsGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N E C wf).start (ix2 e k) idx 1 + (rowsGather N E C wf).batchCoord (ix2 e k) 1 +
      (rowsGather N E C wf).offCoord (ix2 e k) 1 = k.val
    rw [GatherDims.batchCoord_eq_zero _ _ _ List.not_mem_nil]
    have hs : (rowsGather N E C wf).start (ix2 e k) idx 1 = 0 := by
      unfold GatherDims.start
      rw [dif_neg (show (1 : Fin 2) ∉ ([0] : List (Fin 2)) by decide)]
    have ho : (rowsGather N E C wf).offCoord (ix2 e k) 1 = k.val := by
      unfold GatherDims.offCoord
      have h : (1 : Fin 2) ∈ (rowsGather N E C wf).sKept :=
        show (1 : Fin 2) ∈ (List.finRange 2).filter (· ∉ (([0] : List (Fin 2)) ++ [])) by decide
      rw [dif_pos h]
      rfl
    rw [hs, ho]
    simp

end Rows

/-! ## Vector pattern: operand [N], scatter / start indices [E, 1], updates / result [E] -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The scatter's dimension numbers at the vector pattern: the updates have no window axis, the operand's one
    axis is inserted and is the one the scatter index names, the index vector is axis 1 of the scatter indices. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat}

/-- On the operand's one axis the start is the scatter index idx[e, 0], read signed. -/
theorem vecScatter_start (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's one axis (inserted) the window coordinate is 0. -/
theorem vecScatter_window (wf : ScatterDims.WF ⟨1, ![N]⟩ ⟨2, ![E, 1]⟩ ⟨1, ![E]⟩ [] [0] [0] 1)
    (j : (⟨1, ![E]⟩ : Shape).Idx) : (vecScatter N E wf).window j 0 = 0 := by
  unfold ScatterDims.window
  have h : (0 : Fin 1) ∉ (vecScatter N E wf).sKept :=
    show (0 : Fin 1) ∉ (List.finRange 1).filter (· ∉ ([0] : List (Fin 1))) by decide
  rw [dif_neg h]

/-- An update e lands on operand element r exactly when its scatter index, read signed, is r. -/
theorem vecScatter_resultIdx?_iff (wf : ScatterDims.WF ⟨1, ![N]⟩ ⟨2, ![E, 1]⟩ ⟨1, ![E]⟩ [] [0] [0] 1)
    (idx : IVec ⟨2, ![E, 1]⟩ w) (e : Fin E) (r : Fin N) :
    (vecScatter N E wf).resultIdx? (ix1 e) idx = some (ix1 r) ↔ (idx (ix2 e 0)).toInt = (r.val : Int) := by
  rw [resultIdx?_eq_some_iff, Fin.forall_fin_one, vecScatter_start, vecScatter_window]
  simp

/-- THE ACCUMULATING SCATTER READ AT r: the operand's element plus the sum of the updates e whose scatter index
    idx[e, 0], read signed, is r. Indices outside [0, N) are dropped. -/
theorem scatterAdd_vec_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (r : Fin N) :
    Ideal.hostScatterAdd (vecScatter N E wf) x idx upd (ix1 r) =
      x (ix1 r) + ∑ e : Fin E, if (idx (ix2 e 0)).toInt = (r.val : Int) then upd (ix1 e) else 0 := by
  unfold Ideal.hostScatterAdd
  congr 1
  rw [Finset.sum_filter, sum_idx1]
  refine Finset.sum_congr rfl fun e _ => ?_
  simp only [vecScatter_resultIdx?_iff]

/-- The gather's dimension numbers at the vector pattern: the result has no offset axis, the operand's one axis
    is collapsed and is the one the start index names, the index vector is axis 1 of the start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT e: the operand at the start index idx[e, 0], read signed and clamped into [0, N - 1]. -/
theorem gather_vec_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0 +
    (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Vec

end Cert.LibScatterGatherRows

end
-- ==== Proof.KLayer.lean ====
/-
  One layer of the kernel program read at an entry (r, k): the aggregate is a sum over the edges that arrive at node r of
  the source node's row (the gather clamps the source index, the scatter drops an edge whose destination is out of range),
  and the recombination multiplies by the node's scale and adds the bias.
-/
import proofs.«111890_j66211215835754_2_alg».proof.Proof.KHostDefs
import proofs.«111890_j66211215835754_2_alg».proof.Proof.LibScatterGatherRows
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.HostVals

open Cert.KernelIdeal Cert.KernelIdeal.Facts₀ Idealize.ShloMosaic Idealize.ShloMosaic.ValueIdx Cert.GcnSpec Cert.LibScatterGatherRows
open scoped BigOperators

/-- The program's accumulating scatter of rows, read at (r, k), for any operand, start indices and updates. -/
theorem scatterRows_apply (x : S100000x64.Idx → EReal) (idx : S1250000x1.Idx → BitVec 32) (upd : S1250000x64.Idx → EReal)
    (r : Fin 100000) (k : Fin 64) :
    Host.scatterAdd (F := Ideal) (φ := .f32) scatter_S100000x64_S1250000x1_S1250000x64_1_0_0_1 x idx upd (ix2 r k)
      = x (ix2 r k) + ∑ e : Fin 1250000, if (idx (ix2 e 0)).toInt = (r.val : Int) then upd (ix2 e k) else 0 :=
  scatterAdd_rows_apply Facts₀.scatter_S100000x64_S1250000x1_S1250000x64_1_0_0_1_wf x idx upd r k

/-- The program's gather of rows, read at (e, k), for any operand and start indices: the clamped row. -/
theorem gatherRows_apply (x : S100000x64.Idx → EReal) (idx : S1250000x1.Idx → BitVec 32) (e : Fin 1250000) (k : Fin 64) :
    Host.gather gather_S100000x64_S1250000x1_S1250000x64_1_0_n_n_0_1_164 x idx (ix2 e k)
      = x (ix2 (clampN (idx (ix2 e 0)).toInt) k) :=
  gather_rows_apply (N := 100000) (E := 1250000) (C := 64) (by decide)
    Facts₀.gather_S100000x64_S1250000x1_S1250000x64_1_0_n_n_0_1_164_wf x idx e k

/-- The all-zero operand the scatter accumulates into. -/
theorem zeros_rows_apply (i : S100000x64.Idx) :
    broadcastInDim S100000x64 ![] Facts₀.bcast_S_S100000x64 (constant (F := Ideal) S_ .f32 0x00000000#32) i = 0 := by
  rw [broadcastInDim_scalar_apply, constant_apply, Ideal.ofBits_zero_f32]

/-- The aggregate at (r, k): the sum over the edges arriving at r of the (clamped) source node's entry. -/
theorem agg_apply (Hs : S100000x64.Idx → EReal) (A1 : S2x1250000.Idx → BitVec 32) (r : Fin 100000) (k : Fin 64) :
    agg (F := Ideal) Hs A1 (ix2 r k)
      = 0 + ∑ e : Fin 1250000, if tdst A1 e = (r.val : Int) then Hs (ix2 (clampN (tsrc A1 e)) k) else 0 := by
  unfold agg
  rw [scatterRows_apply, zeros_rows_apply]
  simp only [gatherRows_apply]
  rfl

theorem prescale_apply (X : S100000x64.Idx → EReal) (W : S64x64.Idx → EReal) (D : S100000x1.Idx → EReal) (n : Fin 100000) (k : Fin 64) :
    prescale X W D (ix2 n k) = xw X W n k * D (ix2 n 0) := rfl

theorem biasRow_apply (b : S64.Idx → EReal) (k : Fin 64) : biasRow (F := Ideal) b (ix2 0 k) = b (ix1 k) :=
  shapeCast_a_1a_apply b Facts₀.shapeCasts_S64_S1x64 0 k

theorem combine_apply (A H : S100000x64.Idx → EReal) (D : S100000x1.Idx → EReal) (B : S1x64.Idx → EReal) (r : Fin 100000) (k : Fin 64) :
    combine A H D B (ix2 r k) = D (ix2 r 0) * (A (ix2 r k) + H (ix2 r k)) + B (ix2 0 k) := rfl

/-- One layer (without the positive part) at an entry. -/
theorem kernelLayer_apply (X : S100000x64.Idx → EReal) (W : S64x64.Idx → EReal) (b : S64.Idx → EReal)
    (A1 : S2x1250000.Idx → BitVec 32) (D : S100000x1.Idx → EReal) (r : Fin 100000) (k : Fin 64) :
    combine (agg (F := Ideal) (prescale X W D) A1) (prescale X W D) D (biasRow (F := Ideal) b) (ix2 r k)
      = D (ix2 r 0) * ((0 + ∑ e : Fin 1250000, if tdst A1 e = (r.val : Int) then
            xw X W (clampN (tsrc A1 e)) k * D (ix2 (clampN (tsrc A1 e)) 0) else 0) + xw X W r k * D (ix2 r 0)) + b (ix1 k) := by
  rw [combine_apply, agg_apply, biasRow_apply]
  simp only [prescale_apply]

end Cert.KernelIdeal.HostVals

end
-- ==== Proof.RefIdx.lean ====
/-
  The reference program's two index columns, read row by row, against the kernel program's.

  Both programs read an edge's source and destination node off 32-bit words and first normalise them the same way:
  a negative word is shifted up by the node count 100000, any other word is kept. The kernel program normalises the
  1250000 edge words of each row of the edge list; the reference first appends the node numbers 0 … 99999 (one
  self-loop per node) and normalises all 1350000 words. So on the first 1250000 rows the reference's columns are
  the kernel's, and on the last 100000 rows a column reads the row's own node number.
-/
import proofs.«111890_j66211215835754_2_alg».proof.Proof.RefRead
import proofs.«111890_j66211215835754_2_alg».proof.Proof.KHostDefs
import proofs.«111890_j66211215835754_2_alg».proof.Proof.LibScatterGatherRows
import Idealize.ShloMosaic.Lib.Pipeline.Value
import Idealize.ShloMosaic.Lib.ValueIdx
import Idealize.ShloMosaic.Lib.IdealHost
import Idealize.ShloMosaic.PureOps.Ideal.Laws

noncomputable section

namespace Cert.RefLayer

open Idealize.ShloMosaic Idealize.ShloMosaic.ValueIdx Cert.LibScatterGatherRows
open Cert.KernelIdeal (HostVals.srcW HostVals.dstW HostVals.idxCol HostVals.tdst HostVals.tsrc HostVals.clampN HostVals.xw HostVals.degK HostVals.dinvCol)
open scoped BigOperators

/-! ## The word-level index normalisation -/

/-- A negative word is shifted up by the node count 100000; any other word is kept. -/
def norm32 (v : BitVec 32) : BitVec 32 := Scalar.select (IntOp.cmpi .slt v 0#32) (IntOp.addi v 100000#32) v

/-- A node number, as a word, is not negative: it is kept, and reads back signed as itself. -/
theorem norm32_ofNat_toInt (n : Nat) (hn : n < 100000) : (norm32 (BitVec.ofNat 32 n)).toInt = (n : Int) := by
  have h1 : (BitVec.ofNat 32 n).toInt = (n : Int) := by
    rw [BitVec.toInt_eq_toNat_cond, BitVec.toNat_ofNat]
    have : n % 2 ^ 32 = n := Nat.mod_eq_of_lt (by omega)
    rw [this, if_pos (by omega)]
  have hs : (BitVec.ofNat 32 n).slt 0#32 = false := by
    rw [BitVec.slt, h1]
    simp
  unfold norm32 IntOp.cmpi
  simp only [hs]
  rw [show BitVec.ofBool false = 0#1 from rfl, select_zero, h1]

/-! ## The kernel-side columns, read at an edge -/

section KernelSide
open Cert.KernelIdeal Cert.KernelIdeal.Facts₀

/-- Row 0 of the edge list at edge e. -/
theorem srcW_apply (A1 : S2x1250000.Idx → BitVec 32) (e : Fin 1250000) : HostVals.srcW A1 (ix1 e) = A1 (ix2 0 e) := by
  unfold HostVals.srcW
  rw [shapeCast_apply _ shapeCasts_S1x1250000_S1250000 (ix1 e) (ix2 0 e)
    (by rewrite [Shape.rowMajor_val_two, Shape.rowMajor_val_one]; show 0 * 1250000 + e.val = e.val; omega)]
  exact extractStridedSlice_apply ![0, 0] A1 slices_S2x1250000_S1x1250000_0_0 (ix2 0 e) (ix2 0 e) (fun a => match a with
    | ⟨0, _⟩ => by show (0 : Nat) = 0 + 0; omega
    | ⟨1, _⟩ => by show e.val = 0 + e.val; omega)

/-- Row 1 of the edge list at edge e. -/
theorem dstW_apply (A1 : S2x1250000.Idx → BitVec 32) (e : Fin 1250000) : HostVals.dstW A1 (ix1 e) = A1 (ix2 1 e) := by
  unfold HostVals.dstW
  rw [shapeCast_apply _ shapeCasts_S1x1250000_S1250000 (ix1 e) (ix2 0 e)
    (by rewrite [Shape.rowMajor_val_two, Shape.rowMajor_val_one]; show 0 * 1250000 + e.val = e.val; omega)]
  exact extractStridedSlice_apply ![1, 0] A1 slices_S2x1250000_S1x1250000_1_0 (ix2 0 e) (ix2 1 e) (fun a => match a with
    | ⟨0, _⟩ => by show (1 : Nat) = 1 + 0; omega
    | ⟨1, _⟩ => by show e.val = 0 + e.val; omega)

/-- The index column at edge e is the normalised word. -/
theorem idxCol_apply (v : S1250000.Idx → BitVec 32) (e : Fin 1250000) : HostVals.idxCol v (ix2 e 0) = norm32 (v (ix1 e)) := by
  unfold HostVals.idxCol
  rw [broadcastInDim_apply _ bcast_S1250000_S1250000x1_0 _ (ix2 e 0) (ix1 e) (fun a => match a with
    | ⟨0, _⟩ => by show e.val = if (1250000 : Nat) = 1 then 0 else e.val; rw [if_neg (by decide)])]
  rfl

/-- The kernel's signed destination of edge e is the normalised destination word. -/
theorem tdst_eq (A1 : S2x1250000.Idx → BitVec 32) (e : Fin 1250000) : HostVals.tdst A1 e = (norm32 (A1 (ix2 1 e))).toInt := by
  unfold HostVals.tdst
  rw [idxCol_apply, dstW_apply]

/-- The kernel's signed source of edge e is the normalised source word. -/
theorem tsrc_eq (A1 : S2x1250000.Idx → BitVec 32) (e : Fin 1250000) : HostVals.tsrc A1 e = (norm32 (A1 (ix2 0 e))).toInt := by
  unfold HostVals.tsrc
  rw [idxCol_apply, srcW_apply]

end KernelSide

/-! ## Sums over the 1350000 rows: the 1250000 edges, then the 100000 self-loops -/

/-- A sum over a range of length a + b splits into the first a terms and the last b. -/
theorem sum_fin_split {M : Type*} [AddCommMonoid M] {a b c : Nat} (h : a + b = c) (f : Fin c → M) :
    ∑ i, f i = (∑ e : Fin a, f ⟨e.val, by omega⟩) + ∑ n : Fin b, f ⟨a + n.val, by omega⟩ := by
  subst h
  rw [Fin.sum_univ_add]
  rfl

/-- An edge's row among the 1350000. -/
abbrev rowE (e : Fin 1250000) : Fin 1350000 := ⟨e.val, by omega⟩
/-- A self-loop's row among the 1350000. -/
abbrev rowL (n : Fin 100000) : Fin 1350000 := ⟨1250000 + n.val, by omega⟩

/-! ## The reference's index columns, read at a row -/

section RefSide
open Cert.ReferenceIdeal Cert.ReferenceIdeal.Facts₀ Cert.ReferenceIdeal.ReadP

variable (A1 : (⟨2, ![2, 1250000]⟩ : Shape).Idx → BitVec 32)

/-- The flattened row 0 of the edge list at edge e. -/
theorem v1_apply (e : Fin 1250000) : val_main_v1 (F := Ideal) A1 (ix1 e) = A1 (ix2 0 e) := by
  rw [val_main_v1_apply, val_main_v0_apply]
  refine congrArg A1 (funext fun a => Fin.ext ?_)
  match a with
  | ⟨0, _⟩ => rfl
  | ⟨1, _⟩ => show e.val % 1250000 = e.val; omega

/-- The flattened row 1 of the edge list at edge e. -/
theorem v3_apply (e : Fin 1250000) : val_main_v3 (F := Ideal) A1 (ix1 e) = A1 (ix2 1 e) := by
  rw [val_main_v3_apply, val_main_v2_apply]
  refine congrArg A1 (funext fun a => Fin.ext ?_)
  match a with
  | ⟨0, _⟩ => rfl
  | ⟨1, _⟩ => show e.val % 1250000 = e.val; omega

/-- The source words followed by the node numbers: an edge row reads the edge's source word. -/
theorem v6_edge (e : Fin 1250000) : val_main_v6 (F := Ideal) A1 (ix1 (rowE e)) = A1 (ix2 0 e) := by
  unfold val_main_v6
  rw [concatenate_pair_apply_left (0 : Fin S1350000.rank) _ _ concatenates_S1250000_S100000_S1350000_d0 (ix1 (rowE e)) rfl (ix1 e)
    (fun b => match b with | ⟨0, _⟩ => rfl)]
  exact v1_apply A1 e

/-- … and a self-loop row reads its node number. -/
theorem v6_loop (n : Fin 100000) : val_main_v6 (F := Ideal) A1 (ix1 (rowL n)) = BitVec.ofNat 32 n.val := by
  unfold val_main_v6
  rw [concatenate_pair_apply_right (0 : Fin S1350000.rank) _ _ concatenates_S1250000_S100000_S1350000_d0 (ix1 (rowL n)) rfl rfl (ix1 n)
    (fun b hb => absurd (Subsingleton.elim _ _) hb) (by show n.val + 1250000 = 1250000 + n.val; omega)]
  rfl

/-- The destination words followed by the node numbers: an edge row reads the edge's destination word. -/
theorem v7_edge (e : Fin 1250000) : val_main_v7 (F := Ideal) A1 (ix1 (rowE e)) = A1 (ix2 1 e) := by
  unfold val_main_v7
  rw [concatenate_pair_apply_left (0 : Fin S1350000.rank) _ _ concatenates_S1250000_S100000_S1350000_d0 (ix1 (rowE e)) rfl (ix1 e)
    (fun b => match b with | ⟨0, _⟩ => rfl)]
  exact v3_apply A1 e

/-- … and a self-loop row reads its node number. -/
theorem v7_loop (n : Fin 100000) : val_main_v7 (F := Ideal) A1 (ix1 (rowL n)) = BitVec.ofNat 32 n.val := by
  unfold val_main_v7
  rw [concatenate_pair_apply_right (0 : Fin S1350000.rank) _ _ concatenates_S1250000_S100000_S1350000_d0 (ix1 (rowL n)) rfl rfl (ix1 n)
    (fun b hb => absurd (Subsingleton.elim _ _) hb) (by show n.val + 1250000 = 1250000 + n.val; omega)]
  rfl

/-- The destination column at row i is the normalised word of the joined destination array. -/
theorem v14_row (i : Fin 1350000) : val_main_v14 (F := Ideal) A1 (ix2 i 0) = norm32 (val_main_v7 (F := Ideal) A1 (ix1 i)) := by
  rw [val_main_v14_apply, val_main_v13_apply, val_main_v10_apply, val_main_v12_apply, val_main_v9_apply, val_main_v11_apply,
    val_main_c_apply, val_main_c_0_apply]
  have hi : idx_main_v14 (ix2 i 0) = ix1 i := funext fun a => match a with | ⟨0, _⟩ => rfl
  rw [hi]
  rfl

/-- The source column at row i is the normalised word of the joined source array. -/
theorem v26_row (i : Fin 1350000) : val_main_v26 (F := Ideal) A1 (ix2 i 0) = norm32 (val_main_v6 (F := Ideal) A1 (ix1 i)) := by
  rw [val_main_v26_apply, val_main_v25_apply, val_main_v22_apply, val_main_v24_apply, val_main_v21_apply, val_main_v23_apply,
    val_main_c_4_apply, val_main_c_5_apply]
  have hi : idx_main_v26 (ix2 i 0) = ix1 i := funext fun a => match a with | ⟨0, _⟩ => rfl
  rw [hi]
  rfl

/-- The second copy of the destination column is the same array. -/
theorem v33_eq : val_main_v33 (F := Ideal) A1 = val_main_v14 (F := Ideal) A1 := rfl
/-- The third copy of the destination column is the same array. -/
theorem v52_eq : val_main_v52 (F := Ideal) A1 = val_main_v14 (F := Ideal) A1 := rfl
/-- The later copy of the source column is the same array. -/
theorem v43_eq : val_main_v43 (F := Ideal) A1 = val_main_v26 (F := Ideal) A1 := rfl

/-- on an edge row the destination column reads, signed, the kernel's shifted destination word. -/
theorem v14_edge_toInt (e : Fin 1250000) :
    (val_main_v14 (F := Ideal) A1 (ix2 (rowE e) 0)).toInt = HostVals.tdst A1 e := by
  rw [v14_row, v7_edge, tdst_eq]

/-- on a self-loop row the destination column reads, signed, the row's own node. -/
theorem v14_loop_toInt (n : Fin 100000) :
    (val_main_v14 (F := Ideal) A1 (ix2 (rowL n) 0)).toInt = (n.val : Int) := by
  rw [v14_row, v7_loop, norm32_ofNat_toInt _ n.isLt]

/-- on an edge row the source column reads, signed, the kernel's shifted source word. -/
theorem v26_edge_toInt (e : Fin 1250000) :
    (val_main_v26 (F := Ideal) A1 (ix2 (rowE e) 0)).toInt = HostVals.tsrc A1 e := by
  rw [v26_row, v6_edge, tsrc_eq]

/-- on a self-loop row the source column reads, signed, the row's own node. -/
theorem v26_loop_toInt (n : Fin 100000) :
    (val_main_v26 (F := Ideal) A1 (ix2 (rowL n) 0)).toInt = (n.val : Int) := by
  rw [v26_row, v6_loop, norm32_ofNat_toInt _ n.isLt]

end RefSide

/-! ## Two small facts the row sums use -/

/-- A signed node number clamps to itself. -/
theorem clampN_natCast (r : Fin 100000) : HostVals.clampN (r.val : Int) = r := by
  unfold HostVals.clampN
  refine Fin.ext ?_
  show min ((r.val : Int)).toNat (100000 - 1) = r.val
  rw [Int.toNat_natCast]
  have := r.isLt
  omega

/-- Among the numbers below N exactly r equals r: a sum of terms guarded by "n = r" is the term at r. -/
theorem sum_loops {M : Type*} [AddCommMonoid M] {N : Nat} (r : Fin N) (f : Fin N → M) :
    (∑ n : Fin N, if (n.val : Int) = (r.val : Int) then f n else 0) = f r := by
  have h : ∀ n : Fin N, ((n.val : Int) = (r.val : Int)) ↔ n = r := fun n =>
    ⟨fun h => Fin.ext (by exact_mod_cast h), fun h => by rw [h]⟩
  simp only [h]
  rw [Finset.sum_ite_eq' Finset.univ r f, if_pos (Finset.mem_univ r)]

end Cert.RefLayer

end
-- ==== Proof.RefLayer.lean ====
/-
  The node scale of the graph convolution, in the reference program and in the kernel program.

  The degree of node n is the number of edges arriving at n plus one (its self-loop). The reference counts it in one
  accumulating scatter of ones over the 1250000 edges followed by the 100000 self-loops; the kernel program counts
  the edges and adds one. Either way it is a real number that is at least one, so the guarded inverse square root
  the reference takes (zero where the degree is not positive) is the plain inverse square root the kernel takes,
  and it is a real that is not negative.
-/
import proofs.«111890_j66211215835754_2_alg».proof.Proof.RefIdx

noncomputable section

namespace Cert.RefLayer

open Idealize.ShloMosaic Idealize.ShloMosaic.ValueIdx Cert.LibScatterGatherRows
open Cert.KernelIdeal (HostVals.srcW HostVals.dstW HostVals.idxCol HostVals.tdst HostVals.tsrc HostVals.clampN HostVals.xw HostVals.degK HostVals.dinvCol)
open Cert.ReferenceIdeal.ReadP
open scoped BigOperators

/-! ## Small facts -/

/-- A sum of ones and zeros is a real that is not negative. -/
theorem exists_real_sum_ite {ι : Type*} (s : Finset ι) (p : ι → Prop) [DecidablePred p] :
    ∃ c : ℝ, 0 ≤ c ∧ (∑ e ∈ s, if p e then (1 : EReal) else 0) = (c : EReal) := by
  refine Finset.sum_induction _ (fun x : EReal => ∃ c : ℝ, 0 ≤ c ∧ x = (c : EReal)) ?_ ⟨0, le_refl _, by simp⟩ ?_
  · rintro a b ⟨ca, ha, rfl⟩ ⟨cb, hb, rfl⟩
    exact ⟨ca + cb, add_nonneg ha hb, (EReal.coe_add ca cb).symm⟩
  · intro e _
    by_cases h : p e
    · exact ⟨1, zero_le_one, by simp [h]⟩
    · exact ⟨0, le_refl _, by simp [h]⟩

/-- Among the numbers below N exactly one equals r. -/
theorem sum_loops_one {N : Nat} (r : Fin N) :
    (∑ n : Fin N, if (n.val : Int) = (r.val : Int) then (1 : EReal) else 0) = 1 := sum_loops r fun _ => (1 : EReal)

/-- The ideal comparison, as the instance's field. -/
theorem cmpf_ideal {φ : FTy} (p : CmpFPredicate) (x y : Ideal φ) : FloatOps.cmpf p x y = Ideal.cmp p x y := rfl

/-- The host's inverse square root of an array, read at an index, over any array. -/
theorem host_rsqrt_apply {s : Shape} {φ : FTy} (x : FVec Ideal s φ) (i : s.Idx) : Host.rsqrt x i = Ideal.rsqrt (x i) := rfl

/-! ## The two accumulating scatters of ones, read at a node over any operands -/

/-- The reference's degree scatter (1350000 rows) read at node r. -/
theorem scatterVecR_read (x : (⟨1, ![100000]⟩ : Shape).Idx → EReal) (idx : (⟨2, ![1350000, 1]⟩ : Shape).Idx → BitVec 32)
    (upd : (⟨1, ![1350000]⟩ : Shape).Idx → EReal) (r : Fin 100000) :
    Host.scatterAdd (F := Ideal) (φ := .f32) Cert.ReferenceIdeal.scatter_S100000_S1350000x1_S1350000_n_0_0_1 x idx upd (ix1 r)
      = x (ix1 r) + ∑ e' : Fin 1350000, if (idx (ix2 e' 0)).toInt = (r.val : Int) then upd (ix1 e') else 0 :=
  scatterAdd_vec_apply Cert.ReferenceIdeal.Facts₀.scatter_S100000_S1350000x1_S1350000_n_0_0_1_wf x idx upd r

/-- The kernel program's degree scatter (1250000 rows) read at node r. -/
theorem scatterVecK_read (x : (⟨1, ![100000]⟩ : Shape).Idx → EReal) (idx : (⟨2, ![1250000, 1]⟩ : Shape).Idx → BitVec 32)
    (upd : (⟨1, ![1250000]⟩ : Shape).Idx → EReal) (r : Fin 100000) :
    Host.scatterAdd (F := Ideal) (φ := .f32) Cert.KernelIdeal.scatter_S100000_S1250000x1_S1250000_n_0_0_1 x idx upd (ix1 r)
      = x (ix1 r) + ∑ e' : Fin 1250000, if (idx (ix2 e' 0)).toInt = (r.val : Int) then upd (ix1 e') else 0 :=
  scatterAdd_vec_apply Cert.KernelIdeal.Facts₀.scatter_S100000_S1250000x1_S1250000_n_0_0_1_wf x idx upd r

/-! ## The degree and the scale -/

section Scale

variable (A1 : (⟨2, ![2, 1250000]⟩ : Shape).Idx → BitVec 32)

/-- The number of edges arriving at node n: a sum of ones over the edges whose shifted destination word is n. -/
def cnt (n : Fin 100000) : EReal := ∑ e : Fin 1250000, if HostVals.tdst A1 e = (n.val : Int) then (1 : EReal) else 0

/-- It is a real that is not negative. -/
theorem cnt_real (n : Fin 100000) : ∃ c : ℝ, 0 ≤ c ∧ cnt A1 n = (c : EReal) := exists_real_sum_ite _ _

/-- The reference's zero vector. -/
theorem v8_zero (i : Cert.ReferenceIdeal.S100000.Idx) : val_main_v8 (F := Ideal) i = 0 := by
  rw [val_main_v8_apply, val_main_cst_apply]; exact Ideal.ofBits_zero_f32

/-- The reference's vector of ones. -/
theorem v15_one (i : Cert.ReferenceIdeal.S1350000.Idx) : val_main_v15 (F := Ideal) i = 1 := by
  rw [val_main_v15_apply, val_main_cst_1_apply]; exact Ideal.ofBits_one_f32

/-- One row's contribution to the reference's degree of node n, given the row's destination d. -/
theorem deg_term (n : Fin 100000) (i : Fin 1350000) (d : Int)
    (hd : (val_main_v14 (F := Ideal) A1 (ix2 i 0)).toInt = d) :
    (if (val_main_v14 (F := Ideal) A1 (ix2 i 0)).toInt = (n.val : Int) then val_main_v15 (F := Ideal) (ix1 i) else 0)
      = if d = (n.val : Int) then (1 : EReal) else 0 := by
  rw [hd, v15_one]

/-- The reference's degree of node n: zero, plus the arriving edges and the one self-loop. -/
theorem v16_apply (n : Fin 100000) : val_main_v16 (F := Ideal) A1 (ix1 n) = 0 + (cnt A1 n + 1) := by
  unfold val_main_v16
  rw [scatterVecR_read, v8_zero, sum_fin_split (show 1250000 + 100000 = 1350000 by norm_num)]
  refine congrArg₂ (fun a c : EReal => (0 : EReal) + (a + c)) (Finset.sum_congr rfl fun e _ => ?_)
    ((Finset.sum_congr rfl fun m _ => ?_).trans (sum_loops_one n))
  · exact deg_term A1 n (rowE e) _ (v14_edge_toInt A1 e)
  · exact deg_term A1 n (rowL m) _ (v14_loop_toInt A1 m)

/-- The kernel program's degree of node n: zero plus the arriving edges, plus one. -/
theorem degK_apply (n : Fin 100000) : HostVals.degK (F := Ideal) A1 (ix1 n) = (0 + cnt A1 n) + 1 := by
  unfold HostVals.degK
  rw [addf_apply, scatterVecK_read]
  refine congrArg₂ (fun a c : EReal => a + c)
    (congrArg₂ (fun a c : EReal => a + c) ?_ (Finset.sum_congr rfl fun e _ => ?_)) ?_
  · rw [broadcastInDim_scalar_apply, constant_apply]; exact Ideal.ofBits_zero_f32
  · rw [broadcastInDim_scalar_apply, constant_apply, Ideal.ofBits_one_f32]; rfl
  · rw [broadcastInDim_scalar_apply, constant_apply]; exact Ideal.ofBits_one_f32

/-- Both scales at node n are the inverse square root of (arriving edges + 1). -/
theorem scale_val (n : Fin 100000) (c : ℝ) (hc : 0 ≤ c) (h : cnt A1 n = (c : EReal)) :
    val_main_v20 (F := Ideal) A1 (ix1 n) = (((Real.sqrt (c + 1))⁻¹ : ℝ) : EReal) ∧
    HostVals.dinvCol (F := Ideal) A1 (ix2 n 0) = (((Real.sqrt (c + 1))⁻¹ : ℝ) : EReal) := by
  have hrs : Ideal.rsqrt ((c + 1 : ℝ) : EReal) = (((Real.sqrt (c + 1))⁻¹ : ℝ) : EReal) := by
    rw [Ideal.rsqrt_coe, if_neg (not_lt.2 (by linarith)), if_neg (show ¬ (c + 1 = 0) from fun h0 => by linarith)]
  have hpos : (0 : EReal) < ((c + 1 : ℝ) : EReal) := EReal.coe_pos.2 (by linarith)
  have hcmp : Ideal.cmp .ogt ((c + 1 : ℝ) : EReal) 0 = 1#1 := by
    unfold Ideal.cmp
    show BitVec.ofBool (decide ((0 : EReal) < ((c + 1 : ℝ) : EReal))) = 1#1
    rw [decide_eq_true hpos]
    rfl
  constructor
  · have hd : val_main_v16 (F := Ideal) A1 (ix1 n) = ((c + 1 : ℝ) : EReal) := by
      rw [v16_apply, h, zero_add, EReal.coe_add, EReal.coe_one]
    rw [val_main_v20_apply, val_main_v18_apply, val_main_v19_apply, hd, val_main_v17_apply, val_main_cst_2_apply,
      Ideal.hostUnary_rsqrt_def, Ideal.ofBits_def, Ideal.ofBits_zero_f32, cmpf_ideal, hcmp, select_one, hrs]
  · have hd : HostVals.degK (F := Ideal) A1 (ix1 n) = ((c + 1 : ℝ) : EReal) := by
      rw [degK_apply, h, zero_add, EReal.coe_add, EReal.coe_one]
    unfold HostVals.dinvCol
    rw [shapeCast_apply _ Cert.KernelIdeal.Facts₀.shapeCasts_S100000_S100000x1 (ix2 n 0) (ix1 n)
      (by rewrite [Shape.rowMajor_val_two, Shape.rowMajor_val_one]; show n.val = n.val * 1 + 0; omega)]
    rw [host_rsqrt_apply, hd, hrs]

/-- The kernel program's scale column is the reference's scale vector. -/
theorem dinv_eq (n : Fin 100000) :
    HostVals.dinvCol (F := Ideal) A1 (ix2 n 0) = val_main_v20 (F := Ideal) A1 (ix1 n) := by
  obtain ⟨c, hc, h⟩ := cnt_real A1 n
  obtain ⟨h1, h2⟩ := scale_val A1 n c hc h
  rw [h1, h2]

/-- The reference's scale at a node is a real that is not negative. -/
theorem dinv_real (n : Fin 100000) : ∃ q : ℝ, 0 ≤ q ∧ val_main_v20 (F := Ideal) A1 (ix1 n) = (q : EReal) := by
  obtain ⟨c, hc, h⟩ := cnt_real A1 n
  exact ⟨(Real.sqrt (c + 1))⁻¹, inv_nonneg.2 (Real.sqrt_nonneg _), (scale_val A1 n c hc h).1⟩

end Scale

end Cert.RefLayer

end
-- ==== Proof.RefInner.lean ====
/-
  The reference program's first graph-convolution layer, read entry by entry up to its scattered sum.

  The reference multiplies the features by the weights (X · W), gathers the product's row at each edge's
  source node and the node scale at the edge's two ends, multiplies the three, and scatter-adds the edges'
  rows onto their destination nodes; it then adds the bias.  Each lemma reads one of these stages at an entry:
  the product as a sum over the contracted axis, an edge's update row as (scale at one end · scale at the
  other end) · (X · W)(clamped source node, k), the scatter as the sum over the edges whose destination word,
  read signed, is the row, and the bias stage as the bias entry of the column.
-/
import proofs.«111890_j66211215835754_2_alg».proof.Proof.RefRead
import proofs.«111890_j66211215835754_2_alg».proof.Proof.KHostDefs
import proofs.«111890_j66211215835754_2_alg».proof.Proof.LibScatterGatherRows
import Idealize.ShloMosaic.Lib.Pipeline.Value
import Idealize.ShloMosaic.Lib.ValueIdx
import Idealize.ShloMosaic.Lib.IdealHost
import Idealize.ShloMosaic.PureOps.Ideal.Laws

noncomputable section

namespace Cert.RefInner

open Idealize.ShloMosaic Idealize.ShloMosaic.ValueIdx
open Cert.ReferenceIdeal Cert.ReferenceIdeal.Facts₀ Cert.ReferenceIdeal.ReadP
open Cert.LibScatterGatherRows
open Cert.KernelIdeal.HostVals (clampN xw)
open scoped BigOperators

/-! ## The program's gather and scatter records, read at an entry over variables -/

/-- The vector gather read at edge e': the operand at the start index, read signed and clamped into the node range. -/
theorem gatherVec_read (x : S100000.Idx → EReal) (idx : S1350000x1.Idx → BitVec 32) (e' : Fin 1350000) :
    Host.gather gather_S100000_S1350000x1_S1350000_n_0_n_n_0_1_1 x idx (ix1 e') = x (ix1 (clampN (idx (ix2 e' 0)).toInt)) :=
  gather_vec_apply (N := 100000) (E := 1350000) (by omega) gather_S100000_S1350000x1_S1350000_n_0_n_n_0_1_1_wf x idx e'

/-- The row gather read at (e', k): the operand's column k at the clamped start row. -/
theorem gatherRows_read (x : S100000x64.Idx → EReal) (idx : S1350000x1.Idx → BitVec 32) (e' : Fin 1350000) (k : Fin 64) :
    Host.gather gather_S100000x64_S1350000x1_S1350000x64_1_0_n_n_0_1_164 x idx (ix2 e' k) = x (ix2 (clampN (idx (ix2 e' 0)).toInt) k) :=
  gather_rows_apply (N := 100000) (E := 1350000) (C := 64) (by omega) gather_S100000x64_S1350000x1_S1350000x64_1_0_n_n_0_1_164_wf x idx e' k

/-- The accumulating row scatter read at (r, k): the operand's entry plus the sum of the updates' column k over the
    edges whose scatter index, read signed, is r. -/
theorem scatterRows_read (x : S100000x64.Idx → EReal) (idx : S1350000x1.Idx → BitVec 32) (upd : S1350000x64.Idx → EReal)
    (r : Fin 100000) (k : Fin 64) :
    Host.scatterAdd (F := Ideal) (φ := .f32) scatter_S100000x64_S1350000x1_S1350000x64_1_0_0_1 x idx upd (ix2 r k)
      = x (ix2 r k) + ∑ e' : Fin 1350000, if (idx (ix2 e' 0)).toInt = (r.val : Int) then upd (ix2 e' k) else 0 := by
  show Ideal.hostScatterAdd scatter_S100000x64_S1350000x1_S1350000x64_1_0_0_1 x idx upd (ix2 r k) = _
  exact scatterAdd_rows_apply (N := 100000) (E := 1350000) (C := 64) scatter_S100000x64_S1350000x1_S1350000x64_1_0_0_1_wf x idx upd r k

/-! ## The layer's stages -/

section Stages
variable (X : S100000x64.Idx → EReal) (A1 : S2x1250000.Idx → BitVec 32) (W : S64x64.Idx → EReal) (b : S64.Idx → EReal)

/-- The node scale the reference computes from the edge list, at node n. -/
abbrev Dr (n : Fin 100000) : EReal := val_main_v20 (F := Ideal) A1 (ix1 n)

/-- The features times the weights, at (n, k). -/
theorem xw_eq (n : Fin 100000) (k : Fin 64) : val_main_v4 (F := Ideal) X W (ix2 n k) = xw X W n k := by
  rw [val_main_v4_apply]
  unfold xw
  refine Finset.sum_congr rfl fun j _ => ?_
  have el : lidx_main_v4 (ix2 n k) j = ix2 n j := funext fun a => Fin.ext (by
    match a with
    | ⟨0, _⟩ => rfl
    | ⟨1, _⟩ => rfl)
  have er : ridx_main_v4 (ix2 n k) j = ix2 j k := funext fun a => Fin.ext (by
    match a with
    | ⟨0, _⟩ => rfl
    | ⟨1, _⟩ => rfl)
  rw [el, er]

/-- An edge's update row at column k: the scale at the node its first index word names times the scale at the node
    its second names, times the product's entry at the node its third names (each word read signed and clamped). -/
theorem upd_apply (e' : Fin 1350000) (k : Fin 64) :
    val_main_v46 (F := Ideal) X A1 W (ix2 e' k)
      = (Dr A1 (clampN (val_main_v26 (F := Ideal) A1 (ix2 e' 0)).toInt) * Dr A1 (clampN (val_main_v33 (F := Ideal) A1 (ix2 e' 0)).toInt))
        * xw X W (clampN (val_main_v43 (F := Ideal) A1 (ix2 e' 0)).toInt) k := by
  have i45 : idx_main_v45 (ix2 e' k) = ix2 e' 0 := funext fun a => Fin.ext (by
    match a with
    | ⟨0, _⟩ => rfl
    | ⟨1, _⟩ => rfl)
  have i37 : idx_main_v37 (ix2 e' (0 : Fin 1)) = ix1 e' := funext fun a => Fin.ext (by
    match a with
    | ⟨0, _⟩ => rfl)
  rw [val_main_v46_apply, val_main_v45_apply, i45, val_main_v37_apply, i37, val_main_v35_apply]
  unfold val_main_v27 val_main_v34 val_main_v44
  rw [gatherVec_read, gatherVec_read, gatherRows_read, xw_eq]
  unfold Dr
  generalize val_main_v20 (F := Ideal) A1 (ix1 (clampN (val_main_v26 (F := Ideal) A1 (ix2 e' 0)).toInt)) = d1
  generalize val_main_v20 (F := Ideal) A1 (ix1 (clampN (val_main_v33 (F := Ideal) A1 (ix2 e' 0)).toInt)) = d2
  generalize xw X W (clampN (val_main_v43 (F := Ideal) A1 (ix2 e' 0)).toInt) k = p
  rfl

/-- The scattered sum at (r, k): over the edges whose destination word, read signed, is r, of the edge's update. -/
theorem scatter_apply (r : Fin 100000) (k : Fin 64) :
    val_main_v53 (F := Ideal) X A1 W (ix2 r k)
      = 0 + ∑ e' : Fin 1350000, if (val_main_v52 (F := Ideal) A1 (ix2 e' 0)).toInt = (r.val : Int) then val_main_v46 (F := Ideal) X A1 W (ix2 e' k) else 0 := by
  unfold val_main_v53
  generalize val_main_v52 (F := Ideal) A1 = idx
  generalize val_main_v46 (F := Ideal) X A1 W = upd
  rw [scatterRows_read]
  have h0 : val_main_v36 (F := Ideal) (ix2 r k) = 0 := by
    rw [val_main_v36_apply, val_main_cst_8_apply]
    exact Ideal.ofBits_zero_f32
  rw [h0]

/-- The bias stage at (r, k) is the bias entry k. -/
theorem bias_apply (r : Fin 100000) (k : Fin 64) : val_main_v55 (F := Ideal) b (ix2 r k) = b (ix1 k) := by
  have i55 : idx_main_v55 (ix2 r k) = ix2 0 k := funext fun a => Fin.ext (by
    match a with
    | ⟨0, _⟩ => rfl
    | ⟨1, _⟩ => rfl)
  have i54 : idx_main_v54 (ix2 (0 : Fin 1) k) = ix1 k := funext fun a => Fin.ext (by
    match a with
    | ⟨0, _⟩ => rfl)
  rw [val_main_v55_apply, i55, val_main_v54_apply, i54]

/-- The layer's pre-activation at (r, k): the scattered sum plus the bias stage. -/
theorem out_apply (r : Fin 100000) (k : Fin 64) :
    val_main_v56 (F := Ideal) X A1 W b (ix2 r k)
      = val_main_v53 (F := Ideal) X A1 W (ix2 r k) + val_main_v55 (F := Ideal) b (ix2 r k) := by
  rw [val_main_v56_apply]
  generalize val_main_v53 (F := Ideal) X A1 W (ix2 r k) = s
  generalize val_main_v55 (F := Ideal) b (ix2 r k) = t
  rfl

end Stages

end Cert.RefInner

end
-- ==== Proof.RefLayerSum.lean ====
/-
  The reference program's first graph-convolution layer as one formula per entry.

  The reference lists the 1250000 edges followed by one self-loop per node (1350000 rows).  Its scattered sum at
  (r, k) therefore splits into the edges that arrive at r — each contributing (scale at its source · scale at r) ·
  (X · W)(source, k) — and the one self-loop row of r, contributing (scale at r · scale at r) · (X · W)(r, k); the
  bias entry k is then added.
-/
import proofs.«111890_j66211215835754_2_alg».proof.Proof.RefInner
import proofs.«111890_j66211215835754_2_alg».proof.Proof.RefIdx

noncomputable section

namespace Cert.RefLayer

open Idealize.ShloMosaic Idealize.ShloMosaic.ValueIdx
open Cert.ReferenceIdeal Cert.ReferenceIdeal.ReadP
open Cert.KernelIdeal.HostVals
open Cert.RefInner (Dr upd_apply scatter_apply bias_apply out_apply)
open scoped BigOperators

/-- A node's own number, read as a signed start index, clamps to the node. -/
theorem clampN_coe (n : Fin 100000) : clampN (n.val : Int) = n := by
  unfold clampN
  apply Fin.ext
  have hn := n.isLt
  show min ((n.val : Int).toNat) (100000 - 1) = n.val
  rw [Int.toNat_natCast]
  omega

section Terms
variable (X : (⟨2, ![100000, 64]⟩ : Shape).Idx → EReal) (A1 : (⟨2, ![2, 1250000]⟩ : Shape).Idx → BitVec 32)
  (W : (⟨2, ![64, 64]⟩ : Shape).Idx → EReal) (r : Fin 100000) (k : Fin 64)

/-- An edge row's term of the scattered sum at (r, k): nothing unless the edge arrives at r, and then the scale at its
    source times the scale at r, times the product's entry at the source. -/
theorem edge_term (e : Fin 1250000) :
    (if (val_main_v52 (F := Ideal) A1 (ix2 (rowE e) 0)).toInt = (r.val : Int) then val_main_v46 (F := Ideal) X A1 W (ix2 (rowE e) k) else 0)
      = if tdst A1 e = (r.val : Int) then
          (val_main_v20 (F := Ideal) A1 (ix1 (clampN (tsrc A1 e))) * val_main_v20 (F := Ideal) A1 (ix1 r)) * xw X W (clampN (tsrc A1 e)) k else 0 := by
  rw [v52_eq, upd_apply, v33_eq, v43_eq, v14_edge_toInt, v26_edge_toInt]
  by_cases h : tdst A1 e = (r.val : Int)
  · rw [if_pos h, if_pos h, h, clampN_coe]
  · rw [if_neg h, if_neg h]

/-- A self-loop row's term of the scattered sum at (r, k): nothing unless it is r's own, and then the squared scale at
    the node times the product's entry at the node. -/
theorem loop_term (n : Fin 100000) :
    (if (val_main_v52 (F := Ideal) A1 (ix2 (rowL n) 0)).toInt = (r.val : Int) then val_main_v46 (F := Ideal) X A1 W (ix2 (rowL n) k) else 0)
      = if n = r then (val_main_v20 (F := Ideal) A1 (ix1 n) * val_main_v20 (F := Ideal) A1 (ix1 n)) * xw X W n k else 0 := by
  rw [v52_eq, upd_apply, v33_eq, v43_eq, v14_loop_toInt, v26_loop_toInt, clampN_coe]
  by_cases h : n = r
  · subst h; rw [if_pos rfl, if_pos rfl]
  · rw [if_neg h, if_neg (fun h' => h (Fin.ext (by exact_mod_cast h')))]

end Terms

/-- THE LAYER at (r, k): over the edges arriving at r, (scale at the source · scale at r) · (X · W)(source, k); plus the
    self-loop's (scale at r)² · (X · W)(r, k); plus the bias entry k. -/
theorem layer_apply (X : (⟨2, ![100000, 64]⟩ : Shape).Idx → EReal) (A1 : (⟨2, ![2, 1250000]⟩ : Shape).Idx → BitVec 32)
    (W : (⟨2, ![64, 64]⟩ : Shape).Idx → EReal) (b : (⟨1, ![64]⟩ : Shape).Idx → EReal) (r : Fin 100000) (k : Fin 64) :
    val_main_v56 (F := Ideal) X A1 W b (ix2 r k)
      = ((0 : EReal) + ((∑ e : Fin 1250000, if tdst A1 e = (r.val : Int) then
            (val_main_v20 (F := Ideal) A1 (ix1 (clampN (tsrc A1 e))) * val_main_v20 (F := Ideal) A1 (ix1 r)) * xw X W (clampN (tsrc A1 e)) k else 0)
          + (val_main_v20 (F := Ideal) A1 (ix1 r) * val_main_v20 (F := Ideal) A1 (ix1 r)) * xw X W r k)) + b (ix1 k) := by
  rw [out_apply, bias_apply, scatter_apply,
    sum_fin_split (a := 1250000) (b := 100000) (c := 1350000) rfl,
    Finset.sum_congr rfl (fun e _ => edge_term X A1 W r k e),
    Finset.sum_congr rfl (fun n _ => loop_term X A1 W r k n),
    Finset.sum_ite_eq' Finset.univ r (fun n => (val_main_v20 (F := Ideal) A1 (ix1 n) * val_main_v20 (F := Ideal) A1 (ix1 n)) * xw X W n k),
    if_pos (Finset.mem_univ r)]

end Cert.RefLayer

end
-- ==== Proof.GcnLaw.lean ====
/-
  The algebra of one graph-convolution layer on the extended reals.

  With a nonnegative FINITE factor `d` (the inverse square root of a degree), multiplication by `d` distributes over
  every sum of extended reals (this fails for an infinite factor, and for a negative one at ⊤ + ⊥). So the kernel's factored
  form  d · (Σ_e [e lands here] (h_e · s_e) + h · d) + b  is the reference's  Σ_e [e lands here] ((s_e · d) · h_e) + (d · d) · h + b.
-/
import Idealize.ShloMosaic.PureOps.Ideal

noncomputable section

namespace Cert.GcnLaw

open scoped BigOperators

/-- A nonnegative finite factor distributes over a finite sum of extended reals. -/
theorem mul_sum_of_nonneg_ne_top {ι : Type} (s : Finset ι) (d : EReal) (h0 : 0 ≤ d) (ht : d ≠ ⊤) (f : ι → EReal) :
    d * ∑ i ∈ s, f i = ∑ i ∈ s, d * f i := by
  classical
  induction s using Finset.induction_on with
  | empty => simp
  | insert a s ha ih =>
    rw [Finset.sum_insert ha, Finset.sum_insert ha, EReal.left_distrib_of_nonneg_of_ne_top h0 ht, ih]

/-- One output entry of a layer: the factored form against the edge-by-edge form. `sel e` says edge `e` lands on the
    entry's node, `h e` and `s e` are the source node's feature and scale, `hr` the node's own feature. -/
theorem layer_entry {E : Type} [Fintype E] (sel : E → Prop) [DecidablePred sel] (d b hr : EReal)
    (h0 : 0 ≤ d) (ht : d ≠ ⊤) (h s : E → EReal) :
    d * ((∑ e, if sel e then h e * s e else 0) + hr * d) + b
      = ((∑ e, if sel e then (s e * d) * h e else 0) + (d * d) * hr) + b := by
  rw [EReal.left_distrib_of_nonneg_of_ne_top h0 ht, mul_sum_of_nonneg_ne_top _ d h0 ht]
  congr 2
  · refine Finset.sum_congr rfl fun e _ => ?_
    split_ifs
    · ac_rfl
    · simp
  · ac_rfl

end Cert.GcnLaw

end
-- ==== Proof.Bridge.lean ====
/-
  The bridge: the kernel's two-layer network is the reference's, array for array.

  One layer: the kernel computes  D(r) · (Σ_{edges e → r} (X·W)(s_e, k) · D(s_e) + (X·W)(r, k) · D(r)) + b(k)  with
  D the inverse square root of the degree (self-loop counted); the reference computes
  Σ_{edges e → r} (D(s_e) · D(r)) · (X·W)(s_e, k) + (D(r) · D(r)) · (X·W)(r, k) + b(k),  the self-loop being one more
  scattered row. D(r) is a nonnegative real, so it distributes over the sum of extended reals (GcnLaw.layer_entry).
  The second layer is the same function of the first layer's output with its positive part taken.
-/
import proofs.«111890_j66211215835754_2_alg».proof.Proof.KLayer
import proofs.«111890_j66211215835754_2_alg».proof.Proof.RefLayer
import proofs.«111890_j66211215835754_2_alg».proof.Proof.RefLayerSum
import proofs.«111890_j66211215835754_2_alg».proof.Proof.RefShape
import proofs.«111890_j66211215835754_2_alg».proof.Proof.GcnLaw

noncomputable section

namespace Cert.Bridge

open Cert.ReferenceIdeal Cert.ReferenceIdeal.ReadP Idealize.ShloMosaic Idealize.ShloMosaic.ValueIdx
open Cert.KernelIdeal.HostVals Cert.GcnSpec
open scoped BigOperators

/-- One layer, as whole arrays: the kernel's factored form is the reference's first-layer function. -/
theorem layer_eq (X : (⟨2, ![100000, 64]⟩ : Shape).Idx → EReal) (W : (⟨2, ![64, 64]⟩ : Shape).Idx → EReal)
    (b : (⟨1, ![64]⟩ : Shape).Idx → EReal) (A1 : (⟨2, ![2, 1250000]⟩ : Shape).Idx → BitVec 32) :
    combine (agg (F := Ideal) (prescale X W (dinvCol (F := Ideal) A1)) A1) (prescale X W (dinvCol (F := Ideal) A1))
        (dinvCol (F := Ideal) A1) (biasRow (F := Ideal) b)
      = val_main_v56 (F := Ideal) X A1 W b := by
  funext i
  obtain ⟨r, k, rfl⟩ : ∃ (r : Fin 100000) (k : Fin 64), i = ix2 r k := ⟨i 0, i 1, eq_ix2 i⟩
  rw [kernelLayer_apply, Cert.RefLayer.layer_apply]
  simp only [Cert.RefLayer.dinv_eq]
  obtain ⟨q, hq0, hq⟩ := Cert.RefLayer.dinv_real A1 r
  have h0 : (0 : EReal) ≤ val_main_v20 (F := Ideal) A1 (ix1 r) := by rw [hq]; exact_mod_cast hq0
  have ht : val_main_v20 (F := Ideal) A1 (ix1 r) ≠ ⊤ := by rw [hq]; exact EReal.coe_ne_top q
  rw [zero_add, zero_add]
  exact Cert.GcnLaw.layer_entry (fun e : Fin 1250000 => tdst A1 e = (r.val : Int)) (val_main_v20 (F := Ideal) A1 (ix1 r)) (b (ix1 k)) (xw X W r k) h0 ht
    (fun e => xw X W (clampN (tsrc A1 e)) k) (fun e => val_main_v20 (F := Ideal) A1 (ix1 (clampN (tsrc A1 e))))

/-- The two-layer network: the kernel's is the reference's second-layer output. -/
theorem z_eq (A0 : (⟨2, ![100000, 64]⟩ : Shape).Idx → EReal) (A1 : (⟨2, ![2, 1250000]⟩ : Shape).Idx → BitVec 32)
    (A4 : (⟨2, ![64, 64]⟩ : Shape).Idx → EReal) (A5 : (⟨1, ![64]⟩ : Shape).Idx → EReal)
    (A6 : (⟨2, ![64, 64]⟩ : Shape).Idx → EReal) (A7 : (⟨1, ![64]⟩ : Shape).Idx → EReal) :
    zK A0 A1 A4 A5 A6 A7 = val_main_v110 (F := Ideal) A0 A1 A4 A5 A6 A7 := by
  rw [Cert.RefShape.layer2_eq]
  have h1 : combineRelu (agg (F := Ideal) (prescale A0 A4 (dinvCol (F := Ideal) A1)) A1) (prescale A0 A4 (dinvCol (F := Ideal) A1))
        (dinvCol (F := Ideal) A1) (biasRow (F := Ideal) A5)
      = val_main_v57 (F := Ideal) A0 A1 A4 A5 := by
    funext i
    rw [Cert.RefShape.relu_apply, ← layer_eq]
    rfl
  show combine
      (agg (F := Ideal) (prescale (combineRelu (agg (F := Ideal) (prescale A0 A4 (dinvCol (F := Ideal) A1)) A1) (prescale A0 A4 (dinvCol (F := Ideal) A1))
        (dinvCol (F := Ideal) A1) (biasRow (F := Ideal) A5)) A6 (dinvCol (F := Ideal) A1)) A1)
      (prescale (combineRelu (agg (F := Ideal) (prescale A0 A4 (dinvCol (F := Ideal) A1)) A1) (prescale A0 A4 (dinvCol (F := Ideal) A1))
        (dinvCol (F := Ideal) A1) (biasRow (F := Ideal) A5)) A6 (dinvCol (F := Ideal) A1))
      (dinvCol (F := Ideal) A1) (biasRow (F := Ideal) A7) = _
  rw [h1, layer_eq]

end Cert.Bridge

end
-- ==== Proof.lean ====
/-
  The certificate of the two-layer graph-convolution link predictor: a Pallas kernel program (a row-scaled matmul kernel and a
  fused recombination kernel per layer, with the gather / scatter-add aggregation and the edge decoder on the host) against its
  plain reference.

  The three frames are the programs' runs with the results dropped. The kernel's idealization rewrote nothing, so that
  claim is trivial. The value claim: at the ideal instance both programs end with the decoder applied to the same
  100000 x 64 array — the kernel's factored layer D · (scatter(D-scaled rows) + D-scaled row) + b is the reference's
  scatter of D(s)·D(d)-weighted rows (self-loops included) + b, because the degree scale D is a nonnegative real and so
  distributes over sums of extended reals (Bridge.lean); the float inputs' finiteness is not needed.
-/
import proofs.«111890_j66211215835754_2_alg».proof.Defs
import proofs.«111890_j66211215835754_2_alg».proof.Proof.Gen.Kernel
import proofs.«111890_j66211215835754_2_alg».proof.Proof.Gen.Kernel.Frame
import proofs.«111890_j66211215835754_2_alg».proof.Proof.Gen.KernelIdeal
import proofs.«111890_j66211215835754_2_alg».proof.Proof.Gen.KernelIdeal.Frame
import proofs.«111890_j66211215835754_2_alg».proof.Proof.Gen.ReferenceIdeal
import proofs.«111890_j66211215835754_2_alg».proof.Proof.Gen.Pre_finite_inputs
import proofs.«111890_j66211215835754_2_alg».proof.Proof.RefRun
import proofs.«111890_j66211215835754_2_alg».proof.Proof.RefRead
import proofs.«111890_j66211215835754_2_alg».proof.Proof.KRun
import proofs.«111890_j66211215835754_2_alg».proof.Proof.KValue
import proofs.«111890_j66211215835754_2_alg».proof.Proof.RefShape
import proofs.«111890_j66211215835754_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

section Witness

open Cert.KernelIdeal Idealize.ShloMosaic.TcCoe Cert.KernelIdeal.HostVals

/-- The kernel's two-layer network of the launch contents of device `c`. -/
def zMem (m : (ℓ : Loc nD τ sig) → Buf (Elt Ideal) ℓ) (c : Dev nD) : S100000x64.Idx → EReal :=
  zK (m ((c : Thread nD τ).loc main_arg0)) (m ((c : Thread nD τ).loc main_arg1)) (m ((c : Thread nD τ).loc main_arg4))
    (m ((c : Thread nD τ).loc main_arg5)) (m ((c : Thread nD τ).loc main_arg6)) (m ((c : Thread nD τ).loc main_arg7))

/-- The first result both programs end with. -/
def res0 (m : (ℓ : Loc nD τ sig) → Buf (Elt Ideal) ℓ) (c : Dev nD) : Buf (Elt Ideal) ((c : Thread nD τ).loc main_v76) :=
  decode (zMem m c) (m ((c : Thread nD τ).loc main_arg2))

/-- The second result both programs end with. -/
def res1 (m : (ℓ : Loc nD τ sig) → Buf (Elt Ideal) ℓ) (c : Dev nD) : Buf (Elt Ideal) ((c : Thread nD τ).loc main_v92) :=
  decode (zMem m c) (m ((c : Thread nD τ).loc main_arg3))

theorem kernel_res0 (m : (ℓ : Loc nD τ sig) → Buf (Elt Ideal) ℓ) (ρ : Dev nD → PrngReg) (c : Dev nD) :
    Gen.W8 m ρ c (Proc.devRef .tc main_v76) = res0 m c := out0 m ρ c

theorem kernel_res1 (m : (ℓ : Loc nD τ sig) → Buf (Elt Ideal) ℓ) (ρ : Dev nD → PrngReg) (c : Dev nD) :
    Gen.W8 m ρ c (Proc.devRef .tc main_v92) = res1 m c := out1 m ρ c

end Witness

/-- Both programs end with the decoder applied to the kernel's two-layer network `zK` of the (agreeing) arguments. -/
theorem algebraic : Cert.algebraic_KernelIdeal_ReferenceIdeal := by
  intro m ρ m' ρ' _ hagree
  refine ⟨res0 m, res1 m, ?_, ?_⟩
  · exact (θ_run Cert.KernelIdeal.defs _ _).mono
      (fun r h c => ⟨(h c).1.trans (kernel_res0 m ρ c), (h c).2.1.trans (kernel_res1 m ρ c), (h c).2.2⟩)
      (Cert.KernelIdeal.Regions.run_results m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.ReadP.val_main_v130_eq, Cert.RefShape.out0_decode, ← Cert.Bridge.z_eq,
        (hagree c).1, (hagree c).2.1, (hagree c).2.2.1, (hagree c).2.2.2.2.1, (hagree c).2.2.2.2.2.1, (hagree c).2.2.2.2.2.2.1,
        (hagree c).2.2.2.2.2.2.2]
      rfl
    · rw [Cert.ReferenceIdeal.ReadP.val_main_v150_eq, Cert.RefShape.out1_decode, ← Cert.Bridge.z_eq,
        (hagree c).1, (hagree c).2.1, (hagree c).2.2.2.1, (hagree c).2.2.2.2.1, (hagree c).2.2.2.2.2.1, (hagree c).2.2.2.2.2.2.1,
        (hagree c).2.2.2.2.2.2.2]
      rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
